-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x4096 : Shape := ⟨2, ![16384, 4096]⟩
abbrev S_ : Shape := ⟨0, ![]⟩
abbrev S2x4096 : Shape := ⟨2, ![2, 4096]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S2x4096 : S_.BroadcastsInDim S2x4096 (![] : Fin 0 → Fin S2x4096.rank)
  reducesTo_S2x4096_S_d0_1 : S2x4096.ReducesTo [0, 1] S_
  reducesTo_S_S_d : S_.ReducesTo [] S_

variable [Facts]

def fn_part1 {F : FTy → Type} [FloatOps F] (main_v13 : IVec S_ 1) (main_v14 : IVec S_ 1) (main_v15 : IVec S_ 1) : IVec S_ 1 :=
  let main_v16 : IVec S_ 1 := andi main_v14 main_v15
  let main_c_6 : IVec S_ 1 := constantI S_ 1 1#1
  let main_v17 : IVec S_ 1 := (fun x v => Host.reduce IntOp.andi x v reducesTo_S_S_d h_S_) main_v16 main_c_6
  let main_v18 : IVec S_ 1 := andi main_v13 main_v17
  main_v18

def fn {F : FTy → Type} [FloatOps F] (main_arg0 : FVec F S16384x4096 .f32) (main_arg1 : IVec S_ 32) (main_arg2 : FVec F S2x4096 .f32) (main_arg3 : FVec F S2x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S2x4096 .f32 := Host.absf main_arg2
  let main_cst_0 : FVec F S_ .f32 := constant S_ .f32 0x7F800000#32
  let main_v5 : FVec F S2x4096 .f32 := broadcastInDim S2x4096 ![] bcast_S_S2x4096 main_cst_0
  let main_v6 : IVec S2x4096 1 := cmpf .olt main_v4 main_v5
  let main_c_1 : IVec S_ 1 := constantI S_ 1 1#1
  let main_v7 : IVec S_ 1 := (fun x v => Host.reduce IntOp.andi x v reducesTo_S2x4096_S_d0_1 h_S_) main_v6 main_c_1
  let main_v8 : IVec S_ 1 := andi main_v3 main_v7
  let main_v9 : FVec F S2x4096 .f32 := Host.absf main_arg3
  let main_cst_2 : FVec F S_ .f32 := constant S_ .f32 0x7F800000#32
  let main_v10 : FVec F S2x4096 .f32 := broadcastInDim S2x4096 ![] bcast_S_S2x4096 main_cst_2
  let main_v11 : IVec S2x4096 1 := cmpf .olt main_v9 main_v10
  let main_c_3 : IVec S_ 1 := constantI S_ 1 1#1
  let main_v12 : IVec S_ 1 := (fun x v => Host.reduce IntOp.andi x v reducesTo_S2x4096_S_d0_1 h_S_) main_v11 main_c_3
  let main_v13 : IVec S_ 1 := andi main_v8 main_v12
  let main_c_4 : IVec S_ 32 := constantI S_ 32 1#32
  let main_v14 : IVec S_ 1 := cmpi .sge main_arg1 main_c_4
  let main_c_5 : IVec S_ 32 := constantI S_ 32 1#32
  let main_v15 : IVec S_ 1 := cmpi .sle main_arg1 main_c_5
  fn_part1 (F := F) main_v13 main_v14 main_v15
-- ==== Kernel.lean ====
abbrev S16384x4096 : Shape := ⟨2, ![16384, 4096]⟩
abbrev S_ : Shape := ⟨0, ![]⟩
abbrev S2x4096 : Shape := ⟨2, ![2, 4096]⟩
abbrev S1 : Shape := ⟨1, ![1]⟩
abbrev S1x4096 : Shape := ⟨2, ![1, 4096]⟩
abbrev S512x4096 : Shape := ⟨2, ![512, 4096]⟩

abbrev nBuf : Table → Nat
  | .hbm => 8
  | .local .tc .vmem => 6
  | .local .scScalar .smem => 1
  | _ => 0

abbrev bufTy : (tb : Table) → Fin (nBuf tb) → BufTy
  | .hbm, ⟨0, _⟩ => ⟨S16384x4096, .f32⟩
  | .hbm, ⟨1, _⟩ => ⟨S_, .i32⟩
  | .hbm, ⟨2, _⟩ => ⟨S2x4096, .f32⟩
  | .hbm, ⟨3, _⟩ => ⟨S2x4096, .f32⟩
  | .hbm, ⟨4, _⟩ => ⟨S1, .i32⟩
  | .hbm, ⟨5, _⟩ => ⟨S1x4096, .f32⟩
  | .hbm, ⟨6, _⟩ => ⟨S1x4096, .f32⟩
  | .hbm, ⟨7, _⟩ => ⟨S16384x4096, .f32⟩
  | .local .tc .vmem, ⟨0, _⟩ => ⟨S512x4096, .f32⟩
  | .local .tc .vmem, ⟨1, _⟩ => ⟨S512x4096, .f32⟩
  | .local .tc .vmem, ⟨2, _⟩ => ⟨S1x4096, .f32⟩
  | .local .tc .vmem, ⟨3, _⟩ => ⟨S1x4096, .f32⟩
  | .local .tc .vmem, ⟨4, _⟩ => ⟨S512x4096, .f32⟩
  | .local .tc .vmem, ⟨5, _⟩ => ⟨S512x4096, .f32⟩
  | .local .scScalar .smem, ⟨0, _⟩ => ⟨S1, .i32⟩
  | _, _ => ⟨S16384x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v0_scs : Ref sig .scScalar := ⟨.hbm, 4, rfl⟩
abbrev main_arg2_scs : Ref sig .scScalar := ⟨.hbm, 2, rfl⟩
abbrev main_arg3_scs : Ref sig .scScalar := ⟨.hbm, 3, rfl⟩
abbrev main_v1_0_scs : Ref sig .scScalar := ⟨.hbm, 5, rfl⟩
abbrev main_v1_1_scs : Ref sig .scScalar := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scScalar := ⟨.smem, 0, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v4 : BitVec 32) : Fin 2 → Nat :=
  let c0_i32_2_r1 : BitVec 32 := 0#32
  ![v4.toNat, 0]

def k0_chk1 (i : grid0.Coords) (v4 : BitVec 32) : Prop :=
  (∀ (k0_h1 : k0_cond1 i = 1#1), ∀ a, (k0_off1 v4) a + S1x4096.size a ≤ S2x4096.size a)
instance k0_chk1.dec : ∀ (i : grid0.Coords) (v4 : BitVec 32), Decidable (k0_chk1 i v4) := fun i v4 => decidable_of_iff' _ (Iff.of_eq (k0_chk1.eq_1 i v4))
theorem k0_off1_inb : ∀ (i : grid0.Coords) (v4 : BitVec 32) (k0_hw1 : k0_chk1 i v4), ∀ (k0_h1 : k0_cond1 i = 1#1), ∀ a, (k0_off1 v4) a + S1x4096.size a ≤ S2x4096.size a := fun i v4 k0_hw1 k0_h1 => k0_hw1 k0_h1

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S_S1 : S_.ShapeCasts S1
  inb_S1_S1_0 : ∀ a, (![0] : Fin 1 → Nat) a + S1.size a ≤ S1.size a
  numel1_S1 : S1.numel = 1
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hcc0_scoped0 : 0 + S_.numel ≤ 9
  hcc0_scoped1 : 1 + S_.numel ≤ 9
  hcc0_scoped2 : 2 + S_.numel ≤ 9
  hscKind : ∀ q, scKind q ≠ .tc
  hscCore : ∀ q, scNCore q ≤ τ.nSC
  hscSub : ∀ q, scNSub q ≤ τ.nSub
  hcore0 : grid0.bound 0 ≤ τ.nSC
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S16384x4096.size a
  hwx1_3 : ∀ i : grid1.Coords, EltTy.bits .f32 = 32 ∨ (Rect.block (s := S16384x4096) S512x4096.size (cc1_transform_3 i) (hinb1_3 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S_ : Shape := ⟨0, ![]⟩
abbrev S2x4096 : Shape := ⟨2, ![2, 4096]⟩
abbrev S16384 : Shape := ⟨1, ![16384]⟩
abbrev S16384x1 : Shape := ⟨2, ![16384, 1]⟩
abbrev S1 : Shape := ⟨1, ![1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S_, .i32⟩
  | .hbm, ⟨2, _⟩ => ⟨S2x4096, .f32⟩
  | .hbm, ⟨3, _⟩ => ⟨S2x4096, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x4096, .f32⟩
  | .hbm, ⟨24, _⟩ => ⟨S16384x4096, .i1⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x4096, .f32⟩
  | .hbm, ⟨47, _⟩ => ⟨S16384x4096, .i1⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x4096_0 : S16384.BroadcastsInDim S16384x4096 (![0] : Fin 1 → Fin S16384x4096.rank)
  bcast_S_S16384x4096 : S_.BroadcastsInDim S16384x4096 (![] : Fin 0 → Fin S16384x4096.rank)
  gather_S2x4096_S16384x1_S16384x4096_1_0_n_n_0_1_14096_wf : GatherDims.WF S2x4096 S16384x1 S16384x4096 [1] [0] [] [0] [] 1 ![1, 4096]

variable [Facts₀]

def gather_S2x4096_S16384x1_S16384x4096_1_0_n_n_0_1_14096 : GatherDims S2x4096 S16384x1 S16384x4096 where
  offsetDims := [1]
  collapsedSliceDims := [0]
  operandBatchingDims := []
  startIndicesBatchingDims := []
  startIndexMap := [0]
  indexVectorDim := 1
  sliceSizes := ![1, 4096]
  wf := gather_S2x4096_S16384x1_S16384x4096_1_0_n_n_0_1_14096_wf

class Facts : Prop extends Facts₀ where

variable [Facts]
-- ==== Proof.PreDecode.lean ====
/-
  The precondition read back, for the integer argument only. The predicate is a conjunction (bitwise and of
  one-bit words) whose last two conjuncts compare the scalar index with the literal 1, signed: index ≥ 1 and
  index ≤ 1. When the whole predicate is 1, both comparisons are 1, so the index, read as a signed integer, lies
  between 1 and 1: it is the word 1. The index array has rank zero, hence one entry, so the array is constant 1.
-/
import proofs.«211337_g9826885173858_cont_9to1_m_1014_11_alg».proof.Pre_input_domain
import Idealize.ShloMosaic.Lib.Affine
import Idealize.ShloMosaic.Lib.ReduceAll
import Idealize.ShloMosaic.Lib.ValueIdx

noncomputable section

namespace Cert.PreDecode

open Idealize.ShloMosaic

/-- A rank-zero shape has exactly one index. -/
instance : Subsingleton Cert.Pre_input_domain.S_.Idx := ⟨fun a b => funext fun d => d.elim0⟩

/-- A 32-bit word that is at least 1 and at most 1, both read signed, is the word 1. -/
theorem eq_one_of_sge_sle (x : BitVec 32) (h1 : (1#32 : BitVec 32).toInt ≤ x.toInt) (h2 : x.toInt ≤ (1#32 : BitVec 32).toInt) :
    x = 1#32 := by
  apply BitVec.eq_of_toInt_eq
  omega

/-- Under the precondition the scalar index argument is 1. -/
theorem modality_eq_one {F : FTy → Type} [FloatOps F] [Cert.Pre_input_domain.Facts]
    (a0 : FVec F Cert.Pre_input_domain.S16384x4096 .f32) (a1 : IVec Cert.Pre_input_domain.S_ 32)
    (a2 a3 : FVec F Cert.Pre_input_domain.S2x4096 .f32)
    (h : Cert.Pre_input_domain.fn (F := F) a0 a1 a2 a3 = (fun _ => 1#1)) : a1 = fun _ => 1#32 := by
  have h0 := congrFun h ValueIdx.ix0
  dsimp only [Cert.Pre_input_domain.fn, Cert.Pre_input_domain.fn_part1] at h0
  -- the outer conjunction: (finiteness of the three float arrays) and (the reduce of the two comparisons)
  obtain ⟨-, hred⟩ := IntOp.andi_eq_one.1 h0
  -- the reduce over no axes of a rank-zero array: its one element is 1
  have hand := Host.reduce_andi_all _ _ _ _ _ hred ValueIdx.ix0
  obtain ⟨hge, hle⟩ := IntOp.andi_eq_one.1 hand
  have hge' := IntOp.cmpi_sge.1 hge
  have hle' := IntOp.cmpi_sle.1 hle
  funext j
  have hj : j = ValueIdx.ix0 := Subsingleton.elim _ _
  subst hj
  exact eq_one_of_sge_sle _ hge' hle'

end Cert.PreDecode

end
-- ==== Proof.RefOps.lean ====
/-
  The reference program's operations, written out: its @main is one broadcast of the scalar index to a vector, two
  calls of the row-lookup helper (each: twenty-two operations of its own and one call of the three-way select
  helper, which is one operation), a multiplication and an addition — forty-nine array operations in a straight
  line once each call is replaced by its callee's body over that call's own buffers. Every weakly fair execution
  of such a line terminates, and each buffer ends at the composition of the operations that wrote it, applied to
  the launch contents of the argument buffers; the arguments themselves are written by no operation.
-/
import proofs.«211337_g9826885173858_cont_9to1_m_1014_11_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What the operations compute, as a term of the argument arrays -/

/-- The lookup's index vector with negative entries wrapped: where an entry is below zero, the entry plus the
    table's row count 2, elsewhere the entry. -/
def normIdx (idx : IVec S16384 32) : IVec S16384 32 :=
  select (cmpi .slt idx (broadcastInDim S16384 ![] bcast_S_S16384 (constantI S_ 32 0#32)))
    (addi idx (broadcastInDim S16384 ![] bcast_S_S16384 (constantI S_ 32 2#32))) idx

/-- The wrapped indices as a one-column array: the gather's start indices. -/
def idxCol (idx : IVec S16384 32) : IVec S16384x1 32 :=
  broadcastInDim S16384x1 ![0] bcast_S16384_S16384x1_0 (normIdx idx)

/-- Per row, whether the wrapped index lies in the table: 0 ≤ index and index ≤ 1 (the last row), the
    conjunction reduced along the one-column axis. -/
def inRange (idx : IVec S16384 32) : IVec S16384 1 :=
  Host.reduce IntOp.andi
    (andi (cmpi .sge (idxCol idx) (broadcastInDim S16384x1 ![] bcast_S_S16384x1 (constantI S_ 32 0#32)))
      (cmpi .sle (idxCol idx)
        (broadcastInDim S16384x1 ![0, 1] bcast_S1x1_S16384x1_0_1
          (broadcastInDim S1x1 ![1] bcast_S1_S1x1_1 (constantI S1 32 1#32)))))
    (constantI S_ 1 1#1) reducesTo_S16384x1_S16384_d1 h_S_

/-- The row lookup: the gathered table rows where the index is in range, the fill value elsewhere. -/
def take (tbl : FVec F S2x4096 .f32) (idx : IVec S16384 32) : FVec F S16384x4096 .f32 :=
  select (broadcastInDim S16384x4096 ![0] bcast_S16384_S16384x4096_0 (inRange idx))
    (Host.gather gather_S2x4096_S16384x1_S16384x4096_1_0_n_n_0_1_14096 tbl (idxCol idx))
    (broadcastInDim S16384x4096 ![] bcast_S_S16384x4096 (constant S_ .f32 0x7FC00000#32))

/-- The program's result: the features times the looked-up scale rows plus the looked-up shift rows, the lookup
    index the scalar argument repeated for every row. -/
def refTerm (feat : FVec F S16384x4096 .f32) (id : IVec S_ 32) (gamma beta : FVec F S2x4096 .f32) :
    FVec F S16384x4096 .f32 :=
  addf (mulf feat (take gamma (broadcastInDim S16384 ![] bcast_S_S16384 id)))
    (take beta (broadcastInDim S16384 ![] bcast_S_S16384 id))

/-! ## The operation list and the run -/

/-- @main's forty-nine operations in order, each call replaced by its callee's operations over the call's buffers. -/
abbrev ops : List (HloOp τ sig (Elt F)) :=
  [ unary main_arg1 main_v0 (broadcastInDim S16384 ![] bcast_S_S16384 : (⟨S_, .i32⟩ : BufTy).Contents (Elt F) → (⟨S16384, .i32⟩ : BufTy).Contents (Elt F)),
    TRef.nullary main_call0.c (constantI S_ 32 0#32),
    TRef.unary main_call0.c main_call0.v0 (broadcastInDim S16384 ![] bcast_S_S16384),
    TRef.binary (.of main_v0) main_call0.v0 main_call0.v1 (cmpi .slt),
    TRef.nullary main_call0.c_0 (constantI S_ 32 2#32),
    TRef.unary main_call0.c_0 main_call0.v2 (broadcastInDim S16384 ![] bcast_S_S16384),
    TRef.binary (.of main_v0) main_call0.v2 main_call0.v3 addi,
    TRef.ternary main_call0.v1 main_call0.v3 (.of main_v0) main_call0.call0.v0 select,
    TRef.unary main_call0.call0.v0 main_call0.v5 (broadcastInDim S16384x1 ![0] bcast_S16384_S16384x1_0),
    TRef.nullary main_call0.c_1 (constantI S1 32 1#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S2x4096_S16384x1_S16384x4096_1_0_n_n_0_1_14096 x i),
    TRef.unary main_call0.v12 main_call0.v14 (broadcastInDim S16384x4096 ![0] bcast_S16384_S16384x4096_0),
    TRef.nullary main_call0.cst (constant S_ .f32 0x7FC00000#32),
    TRef.unary main_call0.cst main_call0.v15 (broadcastInDim S16384x4096 ![] bcast_S_S16384x4096),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_v0) main_call1.v0 main_call1.v1 (cmpi .slt),
    TRef.nullary main_call1.c_0 (constantI S_ 32 2#32),
    TRef.unary main_call1.c_0 main_call1.v2 (broadcastInDim S16384 ![] bcast_S_S16384),
    TRef.binary (.of main_v0) main_call1.v2 main_call1.v3 addi,
    TRef.ternary main_call1.v1 main_call1.v3 (.of main_v0) main_call1.call0.v0 select,
    TRef.unary main_call1.call0.v0 main_call1.v5 (broadcastInDim S16384x1 ![0] bcast_S16384_S16384x1_0),
    TRef.nullary main_call1.c_1 (constantI S1 32 1#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S2x4096_S16384x1_S16384x4096_1_0_n_n_0_1_14096 x i),
    TRef.unary main_call1.v12 main_call1.v14 (broadcastInDim S16384x4096 ![0] bcast_S16384_S16384x4096_0),
    TRef.nullary main_call1.cst (constant S_ .f32 0x7FC00000#32),
    TRef.unary main_call1.cst main_call1.v15 (broadcastInDim S16384x4096 ![] bcast_S_S16384x4096),
    TRef.ternary main_call1.v14 main_call1.v13 main_call1.v15 main_call1.v16 select,
    binary main_arg0 main_v1 main_v3 (mulf : (⟨S16384x4096, .f32⟩ : BufTy).Contents (Elt F) → (⟨S16384x4096, .f32⟩ : BufTy).Contents (Elt F) → (⟨S16384x4096, .f32⟩ : BufTy).Contents (Elt F)),
    binary main_v3 main_v2 main_v4 (addf : (⟨S16384x4096, .f32⟩ : BufTy).Contents (Elt F) → (⟨S16384x4096, .f32⟩ : BufTy).Contents (Elt F) → (⟨S16384x4096, .f32⟩ : BufTy).Contents (Elt F)) ]

-- forty-nine binds re-associated: one level of recursion per statement
set_option maxRecDepth 1024 in
/-- @main is that straight line: the two helpers' definitions unfolded at their calls, and sequencing
    re-associated to the right. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub ..⟩

/-- Every buffer after the whole line, from any launch memory with zero counters. -/
theorem run_all (m : (ℓ : Loc nD τ sig) → Buf (Elt F) ℓ) (g : Dev nD → PrngReg) :
    θ_run defs (onTc (τ := τ) (main (F := F))) ⟨m, fun _ => 0, g⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m g

end Cert.ReferenceIdeal.RefRun

end
-- ==== Proof.RefRun.lean ====
/-
  The reference program's run read back at its result and its arguments. The straight line of forty-nine
  operations ends with every buffer at the fold of the operations' results over the launch contents; unrolled at
  the result buffer, that fold is the composed term of the four argument arrays (each operation's result at its
  own buffer is its function of its operands' contents; a buffer an operation does not write keeps what it
  held), and at an argument buffer, which no operation writes, it is the launch contents.
-/
import proofs.«211337_g9826885173858_cont_9to1_m_1014_11_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The same forty-nine operations written over the buffers themselves, each operation's function at the
    buffers' own content types. -/
abbrev opsP : List (HloOp τ sig (Elt F)) :=
  [ unary main_arg1 main_v0 (broadcastInDim S16384 ![] bcast_S_S16384 : (⟨S_, .i32⟩ : BufTy).Contents (Elt F) → (⟨S16384, .i32⟩ : BufTy).Contents (Elt F)),
    nullary main_call0_c (constantI S_ 32 0#32 : (⟨S_, .i32⟩ : BufTy).Contents (Elt F)),
    unary main_call0_c main_call0_v0 (broadcastInDim S16384 ![] bcast_S_S16384 : (⟨S_, .i32⟩ : BufTy).Contents (Elt F) → (⟨S16384, .i32⟩ : BufTy).Contents (Elt F)),
    binary main_v0 main_call0_v0 main_call0_v1 (cmpi .slt : (⟨S16384, .i32⟩ : BufTy).Contents (Elt F) → (⟨S16384, .i32⟩ : BufTy).Contents (Elt F) → (⟨S16384, .i1⟩ : BufTy).Contents (Elt F)),
    nullary main_call0_c_0 (constantI S_ 32 2#32 : (⟨S_, .i32⟩ : BufTy).Contents (Elt F)),
    unary main_call0_c_0 main_call0_v2 (broadcastInDim S16384 ![] bcast_S_S16384 : (⟨S_, .i32⟩ : BufTy).Contents (Elt F) → (⟨S16384, .i32⟩ : BufTy).Contents (Elt F)),
    binary main_v0 main_call0_v2 main_call0_v3 (addi : (⟨S16384, .i32⟩ : BufTy).Contents (Elt F) → (⟨S16384, .i32⟩ : BufTy).Contents (Elt F) → (⟨S16384, .i32⟩ : BufTy).Contents (Elt F)),
    ternary main_call0_v1 main_call0_v3 main_v0 main_call0_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call0_v4 main_call0_v5 (broadcastInDim S16384x1 ![0] bcast_S16384_S16384x1_0 : (⟨S16384, .i32⟩ : BufTy).Contents (Elt F) → (⟨S16384x1, .i32⟩ : BufTy).Contents (Elt F)),
    nullary main_call0_c_1 (constantI S1 32 1#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x1 ![] bcast_S_S16384x1 : (⟨S_, .i32⟩ : BufTy).Contents (Elt F) → (⟨S16384x1, .i32⟩ : BufTy).Contents (Elt F)),
    binary main_call0_v5 main_call0_v6 main_call0_v7 (cmpi .sge : (⟨S16384x1, .i32⟩ : BufTy).Contents (Elt F) → (⟨S16384x1, .i32⟩ : BufTy).Contents (Elt F) → (⟨S16384x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S16384x1 ![0, 1] bcast_S1x1_S16384x1_0_1 : (⟨S1x1, .i32⟩ : BufTy).Contents (Elt F) → (⟨S16384x1, .i32⟩ : BufTy).Contents (Elt F)),
    binary main_call0_v5 main_call0_v9 main_call0_v10 (cmpi .sle : (⟨S16384x1, .i32⟩ : BufTy).Contents (Elt F) → (⟨S16384x1, .i32⟩ : BufTy).Contents (Elt F) → (⟨S16384x1, .i1⟩ : BufTy).Contents (Elt F)),
    binary main_call0_v7 main_call0_v10 main_call0_v11 (andi : (⟨S16384x1, .i1⟩ : BufTy).Contents (Elt F) → (⟨S16384x1, .i1⟩ : BufTy).Contents (Elt F) → (⟨S16384x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg2 main_call0_v5 main_call0_v13 (fun x i => Host.gather gather_S2x4096_S16384x1_S16384x4096_1_0_n_n_0_1_14096 x i : (⟨S2x4096, .f32⟩ : BufTy).Contents (Elt F) → (⟨S16384x1, .i32⟩ : BufTy).Contents (Elt F) → (⟨S16384x4096, .f32⟩ : BufTy).Contents (Elt F)),
    unary main_call0_v12 main_call0_v14 (broadcastInDim S16384x4096 ![0] bcast_S16384_S16384x4096_0 : (⟨S16384, .i1⟩ : BufTy).Contents (Elt F) → (⟨S16384x4096, .i1⟩ : BufTy).Contents (Elt F)),
    nullary main_call0_cst (constant S_ .f32 0x7FC00000#32 : (⟨S_, .f32⟩ : BufTy).Contents (Elt F)),
    unary main_call0_cst main_call0_v15 (broadcastInDim S16384x4096 ![] bcast_S_S16384x4096 : (⟨S_, .f32⟩ : BufTy).Contents (Elt F) → (⟨S16384x4096, .f32⟩ : BufTy).Contents (Elt F)),
    ternary main_call0_v14 main_call0_v13 main_call0_v15 main_v1 (select : (⟨S16384x4096, .i1⟩ : BufTy).Contents (Elt F) → (⟨S16384x4096, .f32⟩ : BufTy).Contents (Elt F) → (⟨S16384x4096, .f32⟩ : BufTy).Contents (Elt F) → (⟨S16384x4096, .f32⟩ : BufTy).Contents (Elt F)),
    nullary main_call1_c (constantI S_ 32 0#32 : (⟨S_, .i32⟩ : BufTy).Contents (Elt F)),
    unary main_call1_c main_call1_v0 (broadcastInDim S16384 ![] bcast_S_S16384 : (⟨S_, .i32⟩ : BufTy).Contents (Elt F) → (⟨S16384, .i32⟩ : BufTy).Contents (Elt F)),
    binary main_v0 main_call1_v0 main_call1_v1 (cmpi .slt : (⟨S16384, .i32⟩ : BufTy).Contents (Elt F) → (⟨S16384, .i32⟩ : BufTy).Contents (Elt F) → (⟨S16384, .i1⟩ : BufTy).Contents (Elt F)),
    nullary main_call1_c_0 (constantI S_ 32 2#32 : (⟨S_, .i32⟩ : BufTy).Contents (Elt F)),
    unary main_call1_c_0 main_call1_v2 (broadcastInDim S16384 ![] bcast_S_S16384 : (⟨S_, .i32⟩ : BufTy).Contents (Elt F) → (⟨S16384, .i32⟩ : BufTy).Contents (Elt F)),
    binary main_v0 main_call1_v2 main_call1_v3 (addi : (⟨S16384, .i32⟩ : BufTy).Contents (Elt F) → (⟨S16384, .i32⟩ : BufTy).Contents (Elt F) → (⟨S16384, .i32⟩ : BufTy).Contents (Elt F)),
    ternary main_call1_v1 main_call1_v3 main_v0 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call1_v4 main_call1_v5 (broadcastInDim S16384x1 ![0] bcast_S16384_S16384x1_0 : (⟨S16384, .i32⟩ : BufTy).Contents (Elt F) → (⟨S16384x1, .i32⟩ : BufTy).Contents (Elt F)),
    nullary main_call1_c_1 (constantI S1 32 1#32 : (⟨S1, .i32⟩ : BufTy).Contents (Elt F)),
    nullary main_call1_c_2 (constantI S_ 32 0#32 : (⟨S_, .i32⟩ : BufTy).Contents (Elt F)),
    unary main_call1_c_2 main_call1_v6 (broadcastInDim S16384x1 ![] bcast_S_S16384x1 : (⟨S_, .i32⟩ : BufTy).Contents (Elt F) → (⟨S16384x1, .i32⟩ : BufTy).Contents (Elt F)),
    binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
    binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
    binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg3 main_call1_v5 main_call1_v13 (fun x i => Host.gather gather_S2x4096_S16384x1_S16384x4096_1_0_n_n_0_1_14096 x i : (⟨S2x4096, .f32⟩ : BufTy).Contents (Elt F) → (⟨S16384x1, .i32⟩ : BufTy).Contents (Elt F) → (⟨S16384x4096, .f32⟩ : BufTy).Contents (Elt F)),
    unary main_call1_v12 main_call1_v14 (broadcastInDim S16384x4096 ![0] bcast_S16384_S16384x4096_0 : (⟨S16384, .i1⟩ : BufTy).Contents (Elt F) → (⟨S16384x4096, .i1⟩ : BufTy).Contents (Elt F)),
    nullary main_call1_cst (constant S_ .f32 0x7FC00000#32 : (⟨S_, .f32⟩ : BufTy).Contents (Elt F)),
    unary main_call1_cst main_call1_v15 (broadcastInDim S16384x4096 ![] bcast_S_S16384x4096 : (⟨S_, .f32⟩ : BufTy).Contents (Elt F) → (⟨S16384x4096, .f32⟩ : BufTy).Contents (Elt F)),
    ternary main_call1_v14 main_call1_v13 main_call1_v15 main_v2 (select : (⟨S16384x4096, .i1⟩ : BufTy).Contents (Elt F) → (⟨S16384x4096, .f32⟩ : BufTy).Contents (Elt F) → (⟨S16384x4096, .f32⟩ : BufTy).Contents (Elt F) → (⟨S16384x4096, .f32⟩ : BufTy).Contents (Elt F)),
    binary main_arg0 main_v1 main_v3 (mulf : (⟨S16384x4096, .f32⟩ : BufTy).Contents (Elt F) → (⟨S16384x4096, .f32⟩ : BufTy).Contents (Elt F) → (⟨S16384x4096, .f32⟩ : BufTy).Contents (Elt F)),
    binary main_v3 main_v2 main_v4 (addf : (⟨S16384x4096, .f32⟩ : BufTy).Contents (Elt F) → (⟨S16384x4096, .f32⟩ : BufTy).Contents (Elt F) → (⟨S16384x4096, .f32⟩ : BufTy).Contents (Elt F)) ]

-- the reduction and the gather are compared as they stand, never opened: their bodies are folds over every index
attribute [local irreducible] Host.reduce Host.gather in
/-- The two spellings agree operation by operation: a typed reference built from a literal buffer carries that
    buffer, and the transport of contents along its type equation is the identity. -/
theorem ops_eq : (ops : List (HloOp τ sig (Elt F))) = opsP := by
  repeat (refine congrArg₂ List.cons rfl ?_)
  rfl

set_option maxRecDepth 8192 in
/-- The fold at the result buffer is the composed term of the argument arrays. -/
theorem out_eq (V : Valuation τ sig (Elt F)) :
    after ops V (main_v4 : DevRef τ sig)
      = refTerm (V (main_arg0 : DevRef τ sig)) (V (main_arg1 : DevRef τ sig)) (V (main_arg2 : DevRef τ sig))
          (V (main_arg3 : DevRef τ sig)) := by
  rw [ops_eq]
  after_results_simp
  rfl

/-- No operation writes an argument buffer: the fold leaves each at its launch contents. -/
theorem arg0_eq (V : Valuation τ sig (Elt F)) : after ops V (main_arg0 : DevRef τ sig) = V (main_arg0 : DevRef τ sig) := by
  rw [ops_eq]
  after_results_simp
theorem arg1_eq (V : Valuation τ sig (Elt F)) : after ops V (main_arg1 : DevRef τ sig) = V (main_arg1 : DevRef τ sig) := by
  rw [ops_eq]
  after_results_simp
theorem arg2_eq (V : Valuation τ sig (Elt F)) : after ops V (main_arg2 : DevRef τ sig) = V (main_arg2 : DevRef τ sig) := by
  rw [ops_eq]
  after_results_simp
theorem arg3_eq (V : Valuation τ sig (Elt F)) : after ops V (main_arg3 : DevRef τ sig) = V (main_arg3 : DevRef τ sig) := by
  rw [ops_eq]
  after_results_simp

/-- On every device, for any float values, from any memory with zero counters: every weakly fair execution of
    @main terminates with the result buffer at the composed term of the four argument arrays and the arguments
    unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v4) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (out_eq _), (h c main_arg0).trans (arg0_eq _),
      (h c main_arg1).trans (arg1_eq _), (h c main_arg2).trans (arg2_eq _), (h c main_arg3).trans (arg3_eq _)⟩)
    (run_all m g)

end Cert.ReferenceIdeal.RefRun

end
-- ==== Proof.Spec.lean ====
/-
  The function both programs compute, stated once over the argument arrays and generic in the float instance:
  every row of the feature array is scaled by row 1 of the scale table and shifted by row 1 of the shift table,
      out[r, k] = feat[r, k] * gamma[1, k] + beta[1, k].
  Row 1 is the row the (scalar) modality index selects under the precondition, which pins that index to 1.
  The kernel gets there in two steps — first the two table rows are copied out as one-row arrays, then the affine
  map is applied with those rows — so the same function is also stated over one-row arrays (`affine`), and the two
  statements agree (`G_eq_affine`).
-/
import Idealize.ShloMosaic.PureOps
import Idealize.ShloMosaic.Lib.ValueIdx

noncomputable section

namespace Cert.Spec

open Idealize.ShloMosaic

/-- The feature array's shape, the tables' shape, and one table row's shape. -/
abbrev SB : Shape := ⟨2, ![16384, 4096]⟩
abbrev ST : Shape := ⟨2, ![2, 4096]⟩
abbrev SR : Shape := ⟨2, ![1, 4096]⟩

/-- The table index of row 1 at the column of the feature index `j`. -/
def row1 (j : SB.Idx) : ST.Idx := ValueIdx.ix2 (1 : Fin 2) (j 1 : Fin 4096)

/-- The one-row index at the column of the feature index `j`. -/
def col (j : SB.Idx) : SR.Idx := ValueIdx.ix2 (0 : Fin 1) (j 1 : Fin 4096)

/-- Row 1 of a table, as a one-row array. -/
def tableRow1 {α : Type} (t : ST.Idx → α) : SR.Idx → α := fun y => t (ValueIdx.ix2 (1 : Fin 2) (y 1 : Fin 4096))

/-- The result: `feat * gamma[1, ·] + beta[1, ·]`, entry by entry. -/
def G {F : FTy → Type} [FloatOps F] (feat : FVec F SB .f32) (gamma beta : FVec F ST .f32) : FVec F SB .f32 :=
  addf (mulf feat (fun j => gamma (row1 j))) (fun j => beta (row1 j))

/-- The affine map with the scale and the shift given as one-row arrays: `feat[r, k] * g[0, k] + b[0, k]`. -/
def affine {F : FTy → Type} [FloatOps F] (feat : FVec F SB .f32) (g b : FVec F SR .f32) : FVec F SB .f32 :=
  addf (mulf feat (fun j => g (col j))) (fun j => b (col j))

/-- Applying the affine map with row 1 of each table is the result. -/
theorem G_eq_affine {F : FTy → Type} [FloatOps F] (feat : FVec F SB .f32) (gamma beta : FVec F ST .f32) :
    G feat gamma beta = affine feat (tableRow1 gamma) (tableRow1 beta) := rfl

end Cert.Spec

end
-- ==== Proof.RefValue.lean ====
/-
  The reference's value when the scalar index is 1. The lookup helper wraps negative indices (1 is not negative,
  so it stays 1), masks indices outside the table (0 ≤ 1 ≤ 1 holds, so the mask is all ones and the fill value is
  never selected) and gathers one table row per output row at the start index clamped into the table (1, clamped
  to at most 1, is 1): so each lookup reads row 1 of its table at the output's column, and the product and sum
  are taken entry by entry. That is the specification's function of the three float arrays.
-/
import proofs.«211337_g9826885173858_cont_9to1_m_1014_11_alg».proof.Proof.RefRun
import proofs.«211337_g9826885173858_cont_9to1_m_1014_11_alg».proof.Proof.Spec
import Idealize.ShloMosaic.Lib.ValueIdx
import Idealize.ShloMosaic.Lib.ReduceAll

noncomputable section

namespace Cert.ReferenceIdeal.RefValue

open Cert.ReferenceIdeal Cert.ReferenceIdeal.Gen Cert.ReferenceIdeal.RefRun Idealize.ShloMosaic Idealize.ShloMosaic.ValueIdx Idealize.SL.Sem

variable {F : FTy → Type} [FloatOps F]

/-! ## The gather of table rows, read at an index -/

local notation "gD" => gather_S2x4096_S16384x1_S16384x4096_1_0_n_n_0_1_14096

theorem gather_row_apply {α : Type} {w : Nat} (x : S2x4096.Idx → α) (idx : IVec S16384x1 w) (j : S16384x4096.Idx) :
    Host.gather gD x idx j
      = x (ix2 (⟨min (idx (ix2 (j 0 : Fin 16384) (0 : Fin 1))).toInt.toNat 1, by omega⟩ : Fin 2) (j 1 : Fin 4096)) := by
  unfold Host.gather
  congr 1
  funext a
  refine Fin.ext ?_
  match a with
  | ⟨0, _⟩ =>
    show GatherDims.start gD j idx 0 + GatherDims.batchCoord gD j 0 + GatherDims.offCoord gD j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap gD) from List.mem_singleton.mpr rfl)]
    have hsi : GatherDims.siIdx gD j ⟨List.idxOf (0 : Fin 2) (GatherDims.startIndexMap gD),
        List.idxOf_lt_length_iff.2 (List.mem_singleton.mpr rfl)⟩ = ix2 (j 0 : Fin 16384) (0 : Fin 1) := by
      funext b; refine Fin.ext ?_
      match b with
      | ⟨0, _⟩ => rfl
      | ⟨1, _⟩ => rfl
    rw [hsi]
    rfl
  | ⟨1, _⟩ =>
    show GatherDims.start gD j idx 1 + GatherDims.batchCoord gD j 1 + GatherDims.offCoord gD j 1 = _
    rw [GatherDims.batchCoord_eq_zero _ _ _ List.not_mem_nil]
    have hst : GatherDims.start gD j idx 1 = 0 := by
      unfold GatherDims.start
      rw [dif_neg (show ¬ (1 : Fin 2) ∈ (GatherDims.startIndexMap gD) from by decide)]
    rw [hst]
    simp only [Nat.add_zero, Nat.zero_add]
    unfold GatherDims.offCoord
    rw [dif_pos (show (1 : Fin 2) ∈ (GatherDims.sKept gD) from by decide)]
    rfl

/-! ## A conjunction reduced over indices that all hold -/

/-- A left fold by `and` from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` of an array of ones from an initial one is one at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x _ fun i _ => hx i

/-! ## The lookup at the constant index 1 -/

theorem bcast_one : broadcastInDim S16384 ![] bcast_S_S16384 (fun _ => 1#32 : IVec S_ 32) = fun _ => 1#32 := rfl

/-- The index 1 is not negative, so wrapping keeps it. -/
theorem normIdx_one : normIdx (fun _ => 1#32) = fun _ => 1#32 := by
  funext i
  show Scalar.select (IntOp.cmpi .slt (1#32) (0#32)) (IntOp.addi (1#32) (2#32)) (1#32) = 1#32
  rw [show IntOp.cmpi .slt (1#32) (0#32) = 0#1 from by decide, select_zero]

theorem idxCol_one : idxCol (fun _ => 1#32) = fun _ => 1#32 := by
  unfold idxCol
  rw [normIdx_one]
  rfl

/-- The index 1 lies in the table: 0 ≤ 1 and 1 ≤ 1. -/
theorem inRange_one (i : S16384.Idx) : inRange (fun _ => 1#32) i = 1#1 := by
  unfold inRange
  rw [idxCol_one]
  refine reduce_andi_of_all _ _ _ _ _ (fun k => ?_) (fun _ => rfl)
  show IntOp.andi (IntOp.cmpi .sge (1#32) (0#32)) (IntOp.cmpi .sle (1#32) (1#32)) = 1#1
  decide

/-- With every index 1 the lookup reads row 1 of the table in every row: the in-range mask is all ones, so the
    fill is never taken, and the gather's start index 1, clamped to at most 1, is 1. -/
theorem take_one (tbl : FVec F S2x4096 .f32) :
    take tbl (broadcastInDim S16384 ![] bcast_S_S16384 (fun _ => 1#32 : IVec S_ 32)) = fun j => tbl (Cert.Spec.row1 j) := by
  rw [bcast_one]
  funext j
  unfold take
  rw [select_apply]
  rw [show broadcastInDim S16384x4096 ![0] bcast_S16384_S16384x4096_0 (inRange (fun _ => 1#32)) j = 1#1 from inRange_one _,
    select_one, gather_row_apply, idxCol_one]
  rfl

/-- The reference's term at the index 1 is the specification. -/
theorem result_eq (feat : FVec F S16384x4096 .f32) (gamma beta : FVec F S2x4096 .f32) :
    refTerm feat (fun _ => 1#32) gamma beta = Cert.Spec.G (F := F) feat gamma beta := by
  show addf (mulf feat (take gamma (broadcastInDim S16384 ![] bcast_S_S16384 (fun _ => 1#32 : IVec S_ 32))))
      (take beta (broadcastInDim S16384 ![] bcast_S_S16384 (fun _ => 1#32 : IVec S_ 32)))
    = addf (mulf feat (fun j => gamma (Cert.Spec.row1 j))) (fun j => beta (Cert.Spec.row1 j))
  rw [take_one, take_one]

/-- The run restated with the specification: from a memory whose scalar index is 1 on every device, every weakly
    fair execution terminates with the result buffer at the specification's function of the three float
    arguments, and the arguments unchanged. -/
theorem run_G (m : (ℓ : Loc nD τ sig) → Buf (Elt F) ℓ) (g : Dev nD → PrngReg)
    (hid : ∀ c : Dev nD, m ((c.tc : Thread nD τ).loc main_arg1) = fun _ => 1#32) :
    θ_run (defs (F := F)) (onTc (τ := τ) (main (F := F))) ⟨m, fun _ => 0, g⟩ fun r => ∀ c : Dev nD,
      r.2.mem ((c.tc : Thread nD τ).loc main_v4) = Cert.Spec.G (F := F) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨by rw [(h c).1, hid c]; exact result_eq _ _ _, (h c).2⟩) (RefRun.run m g)

end Cert.ReferenceIdeal.RefValue

end
-- ==== Proof.KISetup.lean ====
/-
  The program as the SparseCore launch theorem sees it, and what the launch hands to whom.
  The program: the scalar index is reshaped to a one-element array; ONE sequencer (SparseCore 0's) copies that
  element into its scalar memory, reads it, and copies the row of the scale table and the row of the shift table
  it names out into two one-row arrays; the TensorCore then applies the affine map block by block.
  The ghost state has three parts side by side: the launch handshakes' rounds, the pipeline's staging cells'
  rounds, and the counters of the sequencer's own local copies.
  The call hands the sequencer the index array (holding 1 everywhere: the precondition), both tables and the two
  one-row arrays, and takes them back with the one-row arrays holding row 1 of each table.
-/
import proofs.«211337_g9826885173858_cont_9to1_m_1014_11_alg».proof.Defs
import proofs.«211337_g9826885173858_cont_9to1_m_1014_11_alg».proof.Proof.Spec
import proofs.«211337_g9826885173858_cont_9to1_m_1014_11_alg».proof.Proof.Gen.KernelIdeal
import proofs.«211337_g9826885173858_cont_9to1_m_1014_11_alg».proof.Proof.Gen.KernelIdeal.Skeleton
import proofs.«211337_g9826885173858_cont_9to1_m_1014_11_alg».proof.Proof.Gen.KernelIdeal.Launch
import proofs.«211337_g9826885173858_cont_9to1_m_1014_11_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the copies' counters -/

abbrev UH : Type := URounds (GSem nD τ sig) ℕ
abbrev UU : Type := UH × (UR sig nD τ × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor. -/
abbrev EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ (MT nD τ sig (HIx 1) (Elt F) ℕ UU ℕ)) := by
  unfold EP; infer_instance

/-! ## The launch memory and the arrays -/

variable (m : (ℓ : Loc nD τ sig) → Buf (Elt F) ℓ) (ρ : Dev nD → PrngReg)

abbrev featLoc (d : Dev nD) : Loc nD τ sig := (SparseCore.T d).loc main_arg0
abbrev idLoc (d : Dev nD) : Loc nD τ sig := (SparseCore.T d).loc main_arg1
abbrev gamLoc (d : Dev nD) : Loc nD τ sig := (SparseCore.T d).loc main_arg2
abbrev betLoc (d : Dev nD) : Loc nD τ sig := (SparseCore.T d).loc main_arg3
abbrev idxLoc (d : Dev nD) : Loc nD τ sig := (SparseCore.T d).loc main_v0
abbrev growLoc (d : Dev nD) : Loc nD τ sig := (SparseCore.T d).loc main_v1_0
abbrev browLoc (d : Dev nD) : Loc nD τ sig := (SparseCore.T d).loc main_v1_1
abbrev outLoc (d : Dev nD) : Loc nD τ sig := (SparseCore.T d).loc main_v2

/-- The one-element index array holding 1. -/
def idxOne (d : Dev nD) : Buf (Elt F) (idxLoc d) := fun _ => (1#32 : BitVec 32)
/-- Row 1 of the scale table and of the shift table, as the one-row arrays' contents. -/
def gRow (d : Dev nD) : Buf (Elt F) (growLoc d) := (Cert.Spec.tableRow1 (m (gamLoc d)) : Cert.Spec.SR.Idx → Elt F .f32)
def bRow (d : Dev nD) : Buf (Elt F) (browLoc d) := (Cert.Spec.tableRow1 (m (betLoc d)) : Cert.Spec.SR.Idx → Elt F .f32)

variable [FloatOps F]

/-- What the call hands SparseCore 0's sequencer: the index array at 1, the two tables as launched, the two
    one-row arrays at whatever they hold. -/
def stRes (d : Dev nD) : sProp 𝕄 :=
  iprop((idxLoc d ↦{fullShare} idxOne d) ∗ (gamLoc d ↦{fullShare} m (gamLoc d)) ∗ (betLoc d ↦{fullShare} m (betLoc d))
    ∗ (∃ f, growLoc d ↦{fullShare} f) ∗ ∃ f, browLoc d ↦{fullShare} f)
/-- What it takes back: the same, the one-row arrays at row 1 of each table. -/
def dnRes (d : Dev nD) : sProp 𝕄 :=
  iprop((idxLoc d ↦{fullShare} idxOne d) ∗ (gamLoc d ↦{fullShare} m (gamLoc d)) ∗ (betLoc d ↦{fullShare} m (betLoc d))
    ∗ (growLoc d ↦{fullShare} gRow m d) ∗ browLoc d ↦{fullShare} bRow m d)

instance stRes_storable (d : Dev nD) : BI.Storable (upEmb : UEmb _ 𝕄) (stRes m d) := by
  unfold stRes; infer_instance
instance dnRes_storable (d : Dev nD) : BI.Storable (upEmb : UEmb _ 𝕄) (dnRes m d) := by
  unfold dnRes; infer_instance

/-- Call 0's payloads; the kernel's proof consumes nothing of the launch's. -/
def P : (K (F := F)).Pay (nD := nD) (Val := Elt F) (Name := ℕ) (U := UU) where
  st := fun _ d _ => stRes m d
  dn := fun _ d _ => dnRes m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.KernelIdeal.Run

end
-- ==== Proof.KIBody.lean ====
/-
  The sequencer's kernel, run once at a symbolic place: three local copies, each issued and waited for on its own
  semaphore — the index array into scalar memory; then, the word read there being 1, row 1 of the scale table
  into the first one-row array and row 1 of the shift table into the second.
-/
import proofs.«211337_g9826885173858_cont_9to1_m_1014_11_alg».proof.Proof.KISetup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "idxW" => (Memref.whole Cert.KernelIdeal.main_v0_scs : Memref Cert.KernelIdeal.sig Kind.scScalar Space.hbm Cert.KernelIdeal.S1 EltTy.i32)
local notation "gamW" => (Memref.whole Cert.KernelIdeal.main_arg2_scs : Memref Cert.KernelIdeal.sig Kind.scScalar Space.hbm Cert.KernelIdeal.S2x4096 EltTy.f32)
local notation "betW" => (Memref.whole Cert.KernelIdeal.main_arg3_scs : Memref Cert.KernelIdeal.sig Kind.scScalar Space.hbm Cert.KernelIdeal.S2x4096 EltTy.f32)
local notation "growW" => (Memref.whole Cert.KernelIdeal.main_v1_0_scs : Memref Cert.KernelIdeal.sig Kind.scScalar Space.hbm Cert.KernelIdeal.S1x4096 EltTy.f32)
local notation "browW" => (Memref.whole Cert.KernelIdeal.main_v1_1_scs : Memref Cert.KernelIdeal.sig Kind.scScalar Space.hbm Cert.KernelIdeal.S1x4096 EltTy.f32)
local notation "scrW" => (Memref.whole Cert.KernelIdeal.cc0_scratch0 : Memref Cert.KernelIdeal.sig Kind.scScalar Space.smem Cert.KernelIdeal.S1 EltTy.i32)

variable [FloatOps F]

section Body

variable (d : Dev nD)

def coordsS (c : Fin (grid0.bound 0)) : grid0.Coords := fun | 0 => c | ⟨_ + 1, h⟩ => absurd h (Nat.not_lt.2 (Nat.le_add_left _ _))

/-- SparseCore 0's sequencer thread. -/
abbrev S0 (h : 0 < grid0.bound 0) : Thread nD τ := S d ((⟨0, h⟩ : Fin (grid0.bound 0)).castLE hcore0)

/-- The sequencer's three semaphores and its scalar-memory word. -/
abbrev cellA (c : Fin τ.nSC) : GSem nD τ sig := (S d c, .dma cc0_scoped0.sem)
abbrev cellB (c : Fin τ.nSC) : GSem nD τ sig := (S d c, .dma cc0_scoped1.sem)
abbrev cellC (c : Fin τ.nSC) : GSem nD τ sig := (S d c, .dma cc0_scoped2.sem)
abbrev scrLoc (c : Fin τ.nSC) : Loc nD τ sig := (S d c).loc cc0_scratch0

omit [FloatOps F] in
/-- The sequencer's three semaphores are among its own: they are those three counters and the rest. -/
theorem ownSems0_S3 (c : Fin τ.nSC) :
    (ownSems0 (S d c) : sProp 𝕄) = iprop(semVal (cellA d c) 0 ∗ semVal (cellB d c) 0 ∗ semVal (cellC d c) 0
      ∗ bigSep ((((ownCells (S d c)).erase (cellA d c)).erase (cellB d c)).erase (cellC d c)) fun g => semVal g 0) := by
  have hBA : (SemLoc.dma cc0_scoped1.sem : SemLoc sig) ≠ SemLoc.dma cc0_scoped0.sem := by decide
  have hCB : (SemLoc.dma cc0_scoped2.sem : SemLoc sig) ≠ SemLoc.dma cc0_scoped1.sem := by decide
  have hCA : (SemLoc.dma cc0_scoped2.sem : SemLoc sig) ≠ SemLoc.dma cc0_scoped0.sem := by decide
  unfold SparseCore.Cfg.ownSems0
  rw [SparseCore.bigSep_erase' ((mem_ownCells (g := cellA d c)).mpr ⟨rfl, by show (SemLoc.dma cc0_scoped0.sem : SemLoc sig).isScoped .scScalar = true; decide⟩),
    SparseCore.bigSep_erase' (i := cellB d c) (Finset.mem_erase.mpr ⟨fun e => hBA (congrArg Prod.snd e),
      (mem_ownCells (g := cellB d c)).mpr ⟨rfl, by show (SemLoc.dma cc0_scoped1.sem : SemLoc sig).isScoped .scScalar = true; decide⟩⟩),
    SparseCore.bigSep_erase' (i := cellC d c) (Finset.mem_erase.mpr ⟨fun e => hCB (congrArg Prod.snd e),
      Finset.mem_erase.mpr ⟨fun e => hCA (congrArg Prod.snd e),
        (mem_ownCells (g := cellC d c)).mpr ⟨rfl, by show (SemLoc.dma cc0_scoped2.sem : SemLoc sig).isScoped .scScalar = true; decide⟩⟩⟩)]

omit [FloatOps F] in
/-- The scalar-memory word is among the sequencer's own buffers: they are it, at some contents, and the rest. -/
theorem ownBufs_S (c : Fin τ.nSC) :
    (ownBufs (S d c) : sProp 𝕄)
      = iprop((∃ f, scrLoc d c ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

omit [FloatOps F] in
/-- The arrays as the sequencer's memrefs address them are the TensorCore's arrays. -/
theorem pts_idx (c : Fin τ.nSC) (f : Buf (Elt F) (idxLoc d)) : ((idxW).view.loc (S d c) ↦{fullShare} f : sProp 𝕄) = idxLoc d ↦{fullShare} f := by
  simp only [Memref.view_whole, View.set_whole]
omit [FloatOps F] in
theorem pts_gam (c : Fin τ.nSC) (f : Buf (Elt F) (gamLoc d)) : ((gamW).view.loc (S d c) ↦{fullShare} f : sProp 𝕄) = gamLoc d ↦{fullShare} f := by
  simp only [Memref.view_whole, View.set_whole]
omit [FloatOps F] in
theorem pts_bet (c : Fin τ.nSC) (f : Buf (Elt F) (betLoc d)) : ((betW).view.loc (S d c) ↦{fullShare} f : sProp 𝕄) = betLoc d ↦{fullShare} f := by
  simp only [Memref.view_whole, View.set_whole]
omit [FloatOps F] in
theorem pts_grow (c : Fin τ.nSC) (f : Buf (Elt F) (growLoc d)) : ((growW).view.loc (S d c) ↦{fullShare} f : sProp 𝕄) = growLoc d ↦{fullShare} f := by
  simp only [Memref.view_whole, View.set_whole]
omit [FloatOps F] in
theorem pts_brow (c : Fin τ.nSC) (f : Buf (Elt F) (browLoc d)) : ((browW).view.loc (S d c) ↦{fullShare} f : sProp 𝕄) = browLoc d ↦{fullShare} f := by
  simp only [Memref.view_whole, View.set_whole]
omit [FloatOps F] in
theorem pts_scr (c : Fin τ.nSC) (f : Buf (Elt F) (scrLoc d c)) : ((scrW).view.loc (S d c) ↦{fullShare} f : sProp 𝕄) = scrLoc d c ↦{fullShare} f := by
  simp only [Memref.view_whole, View.set_whole]

theorem body₀ (h : 0 < grid0.bound 0) (O : CellTallies nD τ sig (HIx 1)) (W : Waits sig (HIx 1)) (hO : ∀ g, O g none = 0) :
    iprop(levAts (K (F := F)).L (K (F := F)).lev ∗ emp ∗ stRes m d
        ∗ scopedBufs (S0 d h) ∗ scopedSems0 (S0 d h) ∗ owes (S0 d h) O W)
      ⊢ wp frame (wpE (defs₀ (F := F)) 𝒱₀ (S0 d h) none) Set.univ
          (cc0__sc_gather_body (coordsS ⟨0, h⟩) idxW (Memref.isWhole_whole _) gamW (Memref.isWhole_whole _) betW (Memref.isWhole_whole _)
            growW (Memref.isWhole_whole _) browW (Memref.isWhole_whole _) scrW (Memref.isWhole_whole _) cc0_scoped0 cc0_scoped1 cc0_scoped2)
          fun _ => iprop(dnRes m d ∗ scopedBufs (S0 d h) ∗ scopedSems0 (S0 d h) ∗ ∃ W', ⌜∀ p ∈ W', p ∈ W ∨ p.2 = none⌝ ∗ owes (S0 d h) O W') := by
  have k0_h1 : k0_cond1 (coordsS ⟨0, h⟩) = 1#1 := by decide +revert
  simp only [cc0__sc_gather_body_eq_skeleton]; unfold cc0__sc_gather_body_skel
  unfold stRes
  iintro ⟨#Hlv, -, ⟨Hidx, Hg, Hb, ⟨%fg, Hgr⟩, %fb, Hbr⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S3 (F := F) d (((⟨0, h⟩ : Fin (grid0.bound 0))).castLE hcore0))) $$ Hown
  icases Hown' with ⟨HsA, HsB, HsC, Hrest⟩
  ihave Hsb' := ((K (F := F)).scopedBufs_S_elim (Val := Elt F) facts d (((⟨0, h⟩ : Fin (grid0.bound 0))).castLE hcore0)) $$ Hsb
  icases Hsb' with ⟨Hob, Hvb⟩
  ihave Hob' := (Entails.of_eq (ownBufs_S (F := F) d (((⟨0, h⟩ : Fin (grid0.bound 0))).castLE hcore0))) $$ Hob
  icases Hob' with ⟨⟨%fs, Hscr⟩, Hbrest⟩
  ihave Hmw := ((K (F := F)).mayWaits_none (thr := S0 d h) hO) $$ Hlv
  ihave Hidx' := (Entails.of_eq (pts_idx (F := F) d (((⟨0, h⟩ : Fin (grid0.bound 0))).castLE hcore0) _).symm) $$ Hidx
  ihave Hg' := (Entails.of_eq (pts_gam (F := F) d (((⟨0, h⟩ : Fin (grid0.bound 0))).castLE hcore0) _).symm) $$ Hg
  ihave Hb' := (Entails.of_eq (pts_bet (F := F) d (((⟨0, h⟩ : Fin (grid0.bound 0))).castLE hcore0) _).symm) $$ Hb
  ihave Hgr' := (Entails.of_eq (pts_grow (F := F) d (((⟨0, h⟩ : Fin (grid0.bound 0))).castLE hcore0) _).symm) $$ Hgr
  ihave Hbr' := (Entails.of_eq (pts_brow (F := F) d (((⟨0, h⟩ : Fin (grid0.bound 0))).castLE hcore0) _).symm) $$ Hbr
  ihave Hscr' := (Entails.of_eq (pts_scr (F := F) d (((⟨0, h⟩ : Fin (grid0.bound 0))).castLE hcore0) _).symm) $$ Hscr
  sl_exec
  have hr : body₀.sl.r d h fs = (1#32 : BitVec 32) := by
    unfold body₀.sl.r body₀.sl.dma0
    simp only [Memref.view_whole, View.write_whole_univ, View.readAt_apply, View.read_whole]
    rfl
  have hchk : k0_chk1 (coordsS ⟨0, h⟩) (body₀.sl.r d h fs) := by
    rw [hr]; intro _; decide
  sl_exec
  have hgRow : View.write (Elt F) (growW).view fg (body₀.sl.dma0_1 m d h k0_h1 fs hchk) Finset.univ = gRow m d := by
    simp only [Memref.view_whole, View.write_whole_univ]
    unfold body₀.sl.dma0_1
    funext y
    refine ((View.read_apply _ _).trans (cast_eq _ _)).trans ?_
    unfold gRow Cert.Spec.tableRow1
    refine congrArg (m (gamLoc d)) ?_
    funext a; apply Fin.ext
    have hy0 : (y 0).val < 1 := (y 0).isLt
    have hoff0 : (k0_off1 (body₀.sl.r d h fs)) 0 = 1 := by rw [hr]; rfl
    have hoff1 : (k0_off1 (body₀.sl.r d h fs)) 1 = 0 := rfl
    match a with
    | ⟨0, _⟩ =>
      show (k0_off1 (body₀.sl.r d h fs)) 0 + 1 * (y 0).val = 1
      omega
    | ⟨1, _⟩ =>
      show (k0_off1 (body₀.sl.r d h fs)) 1 + 1 * (y 1).val = (y 1).val
      omega
  have hbRow : View.write (Elt F) (browW).view fb (body₀.sl.dma0_2 m d h k0_h1 fs hchk) Finset.univ = bRow m d := by
    simp only [Memref.view_whole, View.write_whole_univ]
    unfold body₀.sl.dma0_2
    funext y
    refine ((View.read_apply _ _).trans (cast_eq _ _)).trans ?_
    unfold bRow Cert.Spec.tableRow1
    refine congrArg (m (betLoc d)) ?_
    funext a; apply Fin.ext
    have hy0 : (y 0).val < 1 := (y 0).isLt
    have hoff0 : (k0_off1 (body₀.sl.r d h fs)) 0 = 1 := by rw [hr]; rfl
    have hoff1 : (k0_off1 (body₀.sl.r d h fs)) 1 = 0 := rfl
    match a with
    | ⟨0, _⟩ =>
      show (k0_off1 (body₀.sl.r d h fs)) 0 + 1 * (y 0).val = 1
      omega
    | ⟨1, _⟩ =>
      show (k0_off1 (body₀.sl.r d h fs)) 1 + 1 * (y 1).val = (y 1).val
      omega
  rw [hgRow, hbRow]
  sl_step
  isplitl [Hidx' Hg' Hb' Hgr' Hbr']
  · unfold dnRes
    isplitl [Hidx']; · iapply (Entails.of_eq (pts_idx (F := F) d _ _)); iexact Hidx'
    isplitl [Hg']; · iapply (Entails.of_eq (pts_gam (F := F) d _ _)); iexact Hg'
    isplitl [Hb']; · iapply (Entails.of_eq (pts_bet (F := F) d _ _)); iexact Hb'
    isplitl [Hgr']; · iapply (Entails.of_eq (pts_grow (F := F) d _ _)); iexact Hgr'
    iapply (Entails.of_eq (pts_brow (F := F) d _ _)); iexact Hbr'
  isplitl [Hscr' Hbrest Hvb]
  · iapply ((K (F := F)).scopedBufs_S_intro (Val := Elt F) facts d _)
    isplitl [Hscr' Hbrest]
    · rw [ownBufs_S]
      isplitl [Hscr']
      · iexists _; iapply (Entails.of_eq (pts_scr (F := F) d _ _)); iexact Hscr'
      · iexact Hbrest
    · iexact Hvb
  isplitl [HsA HsB HsC Hrest Hsubs]
  · iapply (SparseCore.Cfg.scopedSems0_S_intro (Val := Elt F) d _)
    isplitl [HsA HsB HsC Hrest]
    · rw [ownSems0_S3]
      isplitl [HsA]; · iexact HsA
      isplitl [HsB]; · iexact HsB
      isplitl [HsC]; · iexact HsC
      iexact Hrest
    · iexact Hsubs
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  · exact .inl hp

end Body

/-! ## The launch theorem's obligation -/

theorem defs₀_scalar (c : Fin τ.nSC) :
    defs₀ (F := F) (.scScalar c) 0 ()
      = SparseCore.onCore hcore0 (fun c => cc0__sc_gather_body (coordsS c) idxW (Memref.isWhole_whole _) gamW (Memref.isWhole_whole _) betW (Memref.isWhole_whole _)
          growW (Memref.isWhole_whole _) browW (Memref.isWhole_whole _) scrW (Memref.isWhole_whole _) cc0_scoped0 cc0_scoped1 cc0_scoped2) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar kernel's obligation at call 0: SparseCore 0's sequencer, the only one of the grid, runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ stRes m d ∗ _) ⊢ wp _ _ _ _ (fun _ => iprop(dnRes m d ∗ _))
  match c with
  | ⟨0, h⟩ => exact (body₀ m d h O W hO).trans (wp_mono frame _ _ fun _ => obl_post)

end Cert.KernelIdeal.Run

end
-- ==== Proof.KIRegionBody.lean ====
/-
  The affine map's pipelined call, as the region finds it: on each core the call walks the 32 row blocks of the
  feature array (512 rows of 4096 columns each), and at every block it multiplies the block, entry by entry, by the one
  scale row and adds the one shift row. This module states, over ANY contents `V` of the core's arrays at the moment the
  call is entered, what each staging buffer holds around the body at each block — the three inputs hold their blocks
  (the two one-row inputs are fetched once, at the first block, and are still in place at every later one), the output
  holds the body's result of the three —, proves the body's triple, and from it the body obligation of the pipeline.
  Everything is generic in the float instance and in the parameters of the logic.
-/
import proofs.«211337_g9826885173858_cont_9to1_m_1014_11_alg».proof.Proof.Gen.KernelIdeal.Launch
import proofs.«211337_g9826885173858_cont_9to1_m_1014_11_alg».proof.Proof.Gen.KernelIdeal.Skeleton
import proofs.«211337_g9826885173858_cont_9to1_m_1014_11_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]
variable {Ix : Type} [DecidableEq Ix] {Name : Type} [DecidableEq Name] {U : Type} [URA U] {Lvl : Type}

local notation "𝕄" => MT nD τ sig Ix (Elt F) Name U Lvl

-- what each of a core's arrays holds when the call is entered
variable (V : (c : Dev nD) → (b : Ref sig .tc) → Buf (Elt F) ((c : Thread nD τ).loc b))

/-! ## The invariant the body does not touch -/

/-- The part of the core the body neither reads nor writes: its scoped buffers that are no staging buffer, at some
    contents, and its generator register at some state. -/
def Φrest (c : Dev nD) : sProp 𝕄 :=
  iprop(Pipeline.scopedRest (Ix := Ix) (Name := Name) (U := U) (Lvl := Lvl) (Val := Elt F) spec1 c ∗ ∃ r, prngReg c r)

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's buffer holds the feature block of the point, for any proof data over `V` whose body leaves
    that block in place. -/
theorem before0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The scale row's buffer holds the whole row at every point: it is fetched at the first point, and at a later point,
    not fetched again, it holds what the body left at the point before, which is the same row. -/
theorem before1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The shift row's buffer likewise. -/
theorem before2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 512 × 4096 buffer and the whole 1 × 4096 buffer, as the rectangles the body loads and stores through. -/
abbrev rBlk : Rect S512x4096 := Rect.unit (s := S512x4096) ![0, 0] S512x4096.size inb_S512x4096_S512x4096_0_0
abbrev rRow : Rect S1x4096 := Rect.unit (s := S1x4096) ![0, 0] S1x4096.size inb_S1x4096_S1x4096_0_0

theorem hz2 : (![0, 0] : Fin 2 → Nat) = fun _ => 0 := by
  funext a; match a with | ⟨0, _⟩ => rfl | ⟨1, _⟩ => rfl

/-! ## What the body leaves in the output window's buffer -/

/-- The output buffer after the body, from the contents of the three input buffers: its one store, through the whole
    buffer, of the product-plus-shift of what the three loads read. -/
def out3 (x0 : Vec F S512x4096 .f32) (x1 : Vec F S1x4096 .f32) (x2 : Vec F S1x4096 .f32) : Vec F S512x4096 .f32 :=
  View.canon [⟨rBlk, k1_pay1 (View.ld x0 rBlk) (View.ld x1 rRow) (View.ld x2 rRow)⟩]

/-- The one store is through the whole buffer, so it covers it. -/
theorem cover3 (p0 : Vec F S512x4096 .f32) (y : S512x4096.Idx) :
    ∃ pc ∈ ([⟨rBlk, p0⟩] : List (View.Piece (Elt F) S512x4096 .f32)), y ∈ pc.1.set :=
  ⟨_, List.mem_singleton_self _, View.mem_set_unit_zero hz2 inb_S512x4096_S512x4096_0_0 y⟩

/-- Loads and the store being through whole buffers, the result is the body's arithmetic of the three contents. -/
theorem out3_eq (x0 : Vec F S512x4096 .f32) (x1 : Vec F S1x4096 .f32) (x2 : Vec F S1x4096 .f32) :
    out3 x0 x1 x2 = k1_pay1 x0 x1 x2 := by
  unfold out3
  rw [View.canon_unit_zero hz2]
  simp only [View.ld_unit_zero (S := S512x4096) hz2, View.ld_unit_zero (S := S1x4096) hz2]

/-! ## The pipeline's proof data -/

-- a bound on the (semaphore, index) pairs the core's waits have recorded when the call is entered
variable (Rec : Set (SemLoc sig × Ix))

/-- The proof data of the call on core `c`: the arrays as the call finds them; after the body at point `t` each input's
    buffer still at its block and the output's at the body's result of the three input blocks; the untouched rest as the
    invariant at every point; nothing owed; full shares; the recorded pairs within `Rec` at every point. -/
def dats (_ : Fin 1) (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Φrest c
  q _ := fullShare
  owed _ := 0
  recorded _ := Rec

/-- The untouched rest, spelt out. -/
theorem Φrest_eq (c : Dev nD) : (Φrest c : sProp 𝕄)
    = iprop(Pipeline.scopedRest (Ix := Ix) (Name := Name) (U := U) (Lvl := Lvl) (Val := Elt F) spec1 c ∗ ∃ r, prngReg c r) := rfl

/-- The proof data's arrays are the contents the call finds. -/
theorem A_eq (c : Dev nD) (w : Fin cfg1.W) :
    (dats (Ix := Ix) (Name := Name) (U := U) (Lvl := Lvl) V Rec 0 c).A w = V c (Pipeline.arrRef spec1 w) := by
  dsimp only [dats]

/-- Its invariant is the untouched rest at every point, it owes nothing, its recorded pairs stay within `Rec`, and every
    share is full. -/
theorem Φ_eq (c : Dev nD) (t : Fin (cfg1.N + 1)) :
    (dats (Ix := Ix) (Name := Name) (U := U) (Lvl := Lvl) V Rec 0 c).Φ t = Φrest c := by
  dsimp only [dats]
theorem owed_eq (c : Dev nD) (t : Fin (cfg1.N + 1)) :
    (dats (Ix := Ix) (Name := Name) (U := U) (Lvl := Lvl) V Rec 0 c).owed t = 0 := by
  dsimp only [dats]
theorem recorded_eq (c : Dev nD) (t : Fin (cfg1.N + 1)) :
    (dats (Ix := Ix) (Name := Name) (U := U) (Lvl := Lvl) V Rec 0 c).recorded t = Rec := by
  dsimp only [dats]
theorem q_eq (c : Dev nD) (w : Fin cfg1.W) :
    (dats (Ix := Ix) (Name := Name) (U := U) (Lvl := Lvl) V Rec 0 c).q w = fullShare := by
  dsimp only [dats]

/-- What the body leaves, window by window. -/
theorem after0 (c : Dev nD) (t : Fin cfg1.N) :
    (dats (Ix := Ix) (Name := Name) (U := U) (Lvl := Lvl) V Rec 0 c).after 0 t = iblk V c 0 t := by dsimp only [dats]
theorem after1 (c : Dev nD) (t : Fin cfg1.N) :
    (dats (Ix := Ix) (Name := Name) (U := U) (Lvl := Lvl) V Rec 0 c).after 1 t = iblk V c 1 t := by dsimp only [dats]
theorem after2 (c : Dev nD) (t : Fin cfg1.N) :
    (dats (Ix := Ix) (Name := Name) (U := U) (Lvl := Lvl) V Rec 0 c).after 2 t = iblk V c 2 t := by dsimp only [dats]
theorem after3 (c : Dev nD) (t : Fin cfg1.N) :
    (dats (Ix := Ix) (Name := Name) (U := U) (Lvl := Lvl) V Rec 0 c).after 3 t
      = out3 (iblk V c 0 t) (iblk V c 1 t) (iblk V c 2 t) := by dsimp only [dats]

/-- Each input's current staging buffer holds its block at every point, fetched there or not. -/
theorem before0 (c : Dev nD) (t : Fin cfg1.N) (d) :
    (dats (Ix := Ix) (Name := Name) (U := U) (Lvl := Lvl) V Rec 0 c).before 0 t d = iblk V c 0 t :=
  before0_of V (dats (Ix := Ix) (Name := Name) (U := U) (Lvl := Lvl) V Rec 0 c) (A_eq V Rec c 0) (after0 V Rec c) t d
theorem before1 (c : Dev nD) (t : Fin cfg1.N) (d) :
    (dats (Ix := Ix) (Name := Name) (U := U) (Lvl := Lvl) V Rec 0 c).before 1 t d = iblk V c 1 t :=
  before1_of V (dats (Ix := Ix) (Name := Name) (U := U) (Lvl := Lvl) V Rec 0 c) (A_eq V Rec c 1) (after1 V Rec c) t d
theorem before2 (c : Dev nD) (t : Fin cfg1.N) (d) :
    (dats (Ix := Ix) (Name := Name) (U := U) (Lvl := Lvl) V Rec 0 c).before 2 t d = iblk V c 2 t :=
  before2_of V (dats (Ix := Ix) (Name := Name) (U := U) (Lvl := Lvl) V Rec 0 c) (A_eq V Rec c 2) (after2 V Rec c) t d

variable [Preorder Lvl]

/-! ## The body's triple -/

set_option maxHeartbeats 1000000 in
/-- The body on whole staging memrefs, the inputs' at read contents `x0 x1 x2` and the output's at anything, runs to
    the continuation holding the inputs' as they were and the output's at `out3` of them. -/
theorem sound_kernel (c : Dev nD) (E : Set Name) (i : grid1.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .f32) (harg4 : arg4.IsWhole)
    (x0 : Vec F S512x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc1__affine_body i arg1 harg1 arg2 harg2 arg3 harg3 arg4 harg4) K := by
  simp only [cc1__affine_body_eq_skeleton]; unfold cc1__affine_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The body obligation, at a generic point -/

/-- What the body is called with at point `t` (the windows one by one), -/
def bodyPre (c : Dev nD) (ι : Ix) (t : Fin cfg1.N) : sProp 𝕄 :=
  iprop((dats (Ix := Ix) (Name := Name) (U := U) (Lvl := Lvl) V Rec 0 c).Φ t.castSucc ∗ (dats (Ix := Ix) (Name := Name) (U := U) (Lvl := Lvl) V Rec 0 c).owesAt ι t.castSucc
    ∗ (∃ d, owns (c : Thread nD τ) (st1_0 t) fullShare ((dats (Ix := Ix) (Name := Name) (U := U) (Lvl := Lvl) V Rec 0 c).before 0 t d))
    ∗ (∃ d, owns (c : Thread nD τ) (st1_1 t) fullShare ((dats (Ix := Ix) (Name := Name) (U := U) (Lvl := Lvl) V Rec 0 c).before 1 t d))
    ∗ (∃ d, owns (c : Thread nD τ) (st1_2 t) fullShare ((dats (Ix := Ix) (Name := Name) (U := U) (Lvl := Lvl) V Rec 0 c).before 2 t d))
    ∗ (∃ d, owns (c : Thread nD τ) (st1_3 t) fullShare ((dats (Ix := Ix) (Name := Name) (U := U) (Lvl := Lvl) V Rec 0 c).before 3 t d)))

/-- and what it returns. -/
def bodyPost (c : Dev nD) (ι : Ix) (t : Fin cfg1.N) : sProp 𝕄 :=
  iprop((dats (Ix := Ix) (Name := Name) (U := U) (Lvl := Lvl) V Rec 0 c).Φ t.succ ∗ (dats (Ix := Ix) (Name := Name) (U := U) (Lvl := Lvl) V Rec 0 c).owesAt ι t.succ
    ∗ owns (c : Thread nD τ) (st1_0 t) fullShare ((dats (Ix := Ix) (Name := Name) (U := U) (Lvl := Lvl) V Rec 0 c).after 0 t)
    ∗ owns (c : Thread nD τ) (st1_1 t) fullShare ((dats (Ix := Ix) (Name := Name) (U := U) (Lvl := Lvl) V Rec 0 c).after 1 t)
    ∗ owns (c : Thread nD τ) (st1_2 t) fullShare ((dats (Ix := Ix) (Name := Name) (U := U) (Lvl := Lvl) V Rec 0 c).after 2 t)
    ∗ owns (c : Thread nD τ) (st1_3 t) fullShare ((dats (Ix := Ix) (Name := Name) (U := U) (Lvl := Lvl) V Rec 0 c).after 3 t))

/-- The body at any point: the inputs' memrefs hold their blocks, so the body's triple applies; the invariant and the
    core's dues pass through unread. -/
theorem sound_body (c : Dev nD) (ι : Ix) (t : Fin cfg1.N) :
    bodyPre (Name := Name) (U := U) (Lvl := Lvl) V Rec c ι t
      ⊢ wp frame (wpE (defs₀ (F := F)) Variants.none c none) Set.univ (bodyAt1 t) (fun _ => bodyPost (Name := Name) (U := U) (Lvl := Lvl) V Rec c ι t) := by
  unfold bodyPre bodyPost bodyAt1
  simp only [before0, before1, before2]
  rw [show (dats (Ix := Ix) (Name := Name) (U := U) (Lvl := Lvl) V Rec 0 c).Φ t.succ = (dats (Ix := Ix) (Name := Name) (U := U) (Lvl := Lvl) V Rec 0 c).Φ t.castSucc from rfl,
    show (dats (Ix := Ix) (Name := Name) (U := U) (Lvl := Lvl) V Rec 0 c).owesAt ι t.succ = (dats (Ix := Ix) (Name := Name) (U := U) (Lvl := Lvl) V Rec 0 c).owesAt ι t.castSucc from rfl,
    after0, after1, after2, after3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) (ι : Ix) :
    BodyObligation (dats (Ix := Ix) (Name := Name) (U := U) (Lvl := Lvl) V Rec 0 c) (defs₀ (F := F)) Variants.none ι Set.univ := fun t => by
  rw [bigSep_W1, bigSep_W1]
  exact sound_body V Rec c ι t

end Cert.KernelIdeal.Region

end
-- ==== Proof.KIRegionValue.lean ====
/-
  The output array of the affine map's pipelined call, as ONE function of the three arrays the call reads.

  Point `t` of the 32 works on rows 512·t … 512·t + 511 of the feature array. Inside a block, the body's result at
  row `p`, column `q` is  in(p, q) · g(0, q) + b(0, q): the cast of a one-row vector to its own shape is the identity and
  its broadcast to 512 rows reads row 0. The feature block at point `t` read at (p, q) is the feature array at
  (512·t + p, q), the two one-row blocks are the whole one-row arrays, and the output block sits at the same rows as
  the feature block. So what every point writes back is its block of the whole-array affine map; the 32 blocks cover
  the 16384 rows (row `r` lies in the block of point r / 512), hence the array ends holding that map. The three input
  arrays are never written.
-/
import proofs.«211337_g9826885173858_cont_9to1_m_1014_11_alg».proof.Proof.KIRegionBody
import proofs.«211337_g9826885173858_cont_9to1_m_1014_11_alg».proof.Proof.Spec
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.SL.Sem Idealize.SL.RA
open Idealize.ShloMosaic.Pipeline (Dat)
open Idealize.ShloMosaic.ValueIdx
open Cert.KernelIdeal.Gen

variable {F : FTy → Type} [FloatOps F]
variable {Ix : Type} [DecidableEq Ix] {Name : Type} [DecidableEq Name] {U : Type} [URA U] {Lvl : Type}

-- what each of a core's arrays holds when the call is entered
variable (V : (c : Dev nD) → (b : Ref sig .tc) → Buf (Elt F) ((c : Thread nD τ).loc b))
-- a bound on the (semaphore, index) pairs the core's waits have recorded when the call is entered
variable (Rec : Set (SemLoc sig × Ix))

/-! ## The body's arithmetic at an entry of the block -/

/-- Broadcasting a one-row vector to 512 rows reads, at row `p` and column `q`, row 0 at column `q`. -/
theorem broadcast_row_apply {α : Type} (x : S1x4096.Idx → α) (h : S1x4096.Broadcasts S512x4096) (p : Fin 512) (q : Fin 4096) :
    broadcastTo S512x4096 x h (ix2 p q) = x (ix2 (0 : Fin 1) q) :=
  broadcastTo_apply x h (ix2 p q) (ix2 (0 : Fin 1) q) (fun a => by match a with | ⟨0, _⟩ => rfl | ⟨1, _⟩ => rfl)

/-- The body's result at row `p`, column `q` of the block: the loaded entry times the scale row's entry of that column,
    plus the shift row's. -/
theorem pay_apply (x0 : Vec F S512x4096 .f32) (x1 : Vec F S1x4096 .f32) (x2 : Vec F S1x4096 .f32) (p : Fin 512) (q : Fin 4096) :
    k1_pay1 x0 x1 x2 (ix2 p q)
      = FloatOps.addf (FloatOps.mulf (x0 (ix2 p q)) (x1 (ix2 (0 : Fin 1) q))) (x2 (ix2 (0 : Fin 1) q)) := by
  unfold k1_pay1
  show FloatOps.addf (FloatOps.mulf (x0 (ix2 p q))
      (broadcastTo S512x4096 (shapeCast S1x4096 x1 shapeCasts_S1x4096_S1x4096) broadcasts_S1x4096_S512x4096 (ix2 p q)))
      (broadcastTo S512x4096 (shapeCast S1x4096 x2 shapeCasts_S1x4096_S1x4096) broadcasts_S1x4096_S512x4096 (ix2 p q)) = _
  rw [broadcast_row_apply, broadcast_row_apply, shapeCast_self, shapeCast_self]

/-! ## Where the blocks sit -/

/-- The printed index maps over the grid: the feature and the output windows are at block row `t`, block column 0; the
    two one-row windows are at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array affine map at an index. -/
theorem affine_apply (feat : FVec F Cert.Spec.SB .f32) (g b : FVec F Cert.Spec.SR .f32) (i : Cert.Spec.SB.Idx) :
    Cert.Spec.affine feat g b i = FloatOps.addf (FloatOps.mulf (feat i) (g (Cert.Spec.col i))) (b (Cert.Spec.col i)) := rfl

/-- WHAT POINT `t` WRITES BACK is block `t` of the affine map of the arrays as the call finds them. -/
theorem flushed3_eq (c : Dev nD) (t : Fin cfg1.N) :
    (dats (Ix := Ix) (Name := Name) (U := U) (Lvl := Lvl) V Rec 0 c).flushed 3 t
      = ((cfg1.win 3).blk t).view.read (Elt F) (Cert.Spec.affine (F := F) (V c main_arg0) (V c main_v1_0) (V c main_v1_1)) := by
  show (cfg1.win 3).cut (grid1.coords t) ((dats (Ix := Ix) (Name := Name) (U := U) (Lvl := Lvl) V Rec 0 c).after 3 t) = _
  rw [after3, out3_eq]
  obtain ⟨e00, e01, e10, e11, e20, e21, e30, e31⟩ := idx_facts t
  funext j
  obtain ⟨p, q, rfl⟩ : ∃ (p : Fin 512) (q : Fin 4096), j = ix2 p q := ⟨j 0, j 1, eq_ix2 j⟩
  show k1_pay1 (iblk V c 0 t) (iblk V c 1 t) (iblk V c 2 t) (ix2 p q)
    = Cert.Spec.affine (F := F) (V c main_arg0) (V c main_v1_0) (V c main_v1_1) (((cfg1.win 3).blk t).view.emb (ix2 p q))
  refine (pay_apply (iblk V c 0 t) (iblk V c 1 t) (iblk V c 2 t) p q).trans ?_
  rw [affine_apply]
  have h0 : iblk V c 0 t (ix2 p q) = V c main_arg0 (((cfg1.win 3).blk t).view.emb (ix2 p q)) := by
    show V c main_arg0 (((cfg1.win 0).blk t).view.emb (ix2 p q)) = V c main_arg0 (((cfg1.win 3).blk t).view.emb (ix2 p q))
    refine congrArg (V c main_arg0) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 4096 + 1 * q.val = win1_3.index t (1 : Fin 2) * 4096 + 1 * q.val; omega
  have h1 : iblk V c 1 t (ix2 (0 : Fin 1) q) = V c main_v1_0 (Cert.Spec.col (((cfg1.win 3).blk t).view.emb (ix2 p q))) := by
    show V c main_v1_0 (((cfg1.win 1).blk t).view.emb (ix2 (0 : Fin 1) q)) = V c main_v1_0 (Cert.Spec.col (((cfg1.win 3).blk t).view.emb (ix2 p q)))
    refine congrArg (V c main_v1_0) (funext fun a => Fin.ext ?_)
    match a with
    | ⟨0, _⟩ => show win1_1.index t (0 : Fin 2) * 1 + 1 * 0 = 0; omega
    | ⟨1, _⟩ => show win1_1.index t (1 : Fin 2) * 4096 + 1 * q.val = win1_3.index t (1 : Fin 2) * 4096 + 1 * q.val; omega
  have h2 : iblk V c 2 t (ix2 (0 : Fin 1) q) = V c main_v1_1 (Cert.Spec.col (((cfg1.win 3).blk t).view.emb (ix2 p q))) := by
    show V c main_v1_1 (((cfg1.win 2).blk t).view.emb (ix2 (0 : Fin 1) q)) = V c main_v1_1 (Cert.Spec.col (((cfg1.win 3).blk t).view.emb (ix2 p q)))
    refine congrArg (V c main_v1_1) (funext fun a => Fin.ext ?_)
    match a with
    | ⟨0, _⟩ => show win1_2.index t (0 : Fin 2) * 1 + 1 * 0 = 0; omega
    | ⟨1, _⟩ => show win1_2.index t (1 : Fin 2) * 4096 + 1 * q.val = win1_3.index t (1 : Fin 2) * 4096 + 1 * q.val; omega
  rw [h0, h1, h2]

/-! ## The blocks cover the array -/

/-- An index of the output array is in point `t`'s block iff each coordinate is in the block's range on its axis. -/
theorem mem_blk3 (t : Fin cfg1.N) (i : S16384x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v2).slice (win1_3.rect t)).set ↔ _
  rw [View.set_slice_whole, Rect.mem_set_unit]
  exact Iff.rfl

/-- Row `r` of the output array lies in the block of point r / 512, which writes its block back. -/
theorem covered3 (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  have hN : cfg1.N = 32 := N_1
  let t : Fin cfg1.N := ⟨(i 0).val / 512, by rw [hN]; omega⟩
  obtain ⟨e00, e01, e10, e11, e20, e21, e30, e31⟩ := idx_facts t
  have ht : t.val = (i 0).val / 512 := rfl
  refine ⟨t, flush1_3 t, ?_⟩
  rw [mem_blk3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 4096 ≤ (i 1).val ∧ (i 1).val < win1_3.index t (1 : Fin 2) * 4096 + 4096; omega

/-! ## The arrays after the call -/

/-- THE OUTPUT ARRAY after the call is the affine map of the arrays as the call finds them. -/
theorem final3 (c : Dev nD) :
    (dats (Ix := Ix) (Name := Name) (U := U) (Lvl := Lvl) V Rec 0 c).arrAt 3 cfg1.N
      = Cert.Spec.affine (F := F) (V c main_arg0) (V c main_v1_0) (V c main_v1_1) :=
  (dats (Ix := Ix) (Name := Name) (U := U) (Lvl := Lvl) V Rec 0 c).arrAt_eq_of_cover 3 _ (fun t _ => flushed3_eq V Rec c t) covered3

/-- The three input arrays are as the call found them. -/
theorem kept0 (c : Dev nD) :
    (dats (Ix := Ix) (Name := Name) (U := U) (Lvl := Lvl) V Rec 0 c).arrAt 0 cfg1.N = V c (Pipeline.arrRef spec1 0) :=
  ((dats (Ix := Ix) (Name := Name) (U := U) (Lvl := Lvl) V Rec 0 c).arrAt_in 0 rfl _).trans (A_eq V Rec c 0)
theorem kept1 (c : Dev nD) :
    (dats (Ix := Ix) (Name := Name) (U := U) (Lvl := Lvl) V Rec 0 c).arrAt 1 cfg1.N = V c (Pipeline.arrRef spec1 1) :=
  ((dats (Ix := Ix) (Name := Name) (U := U) (Lvl := Lvl) V Rec 0 c).arrAt_in 1 rfl _).trans (A_eq V Rec c 1)
theorem kept2 (c : Dev nD) :
    (dats (Ix := Ix) (Name := Name) (U := U) (Lvl := Lvl) V Rec 0 c).arrAt 2 cfg1.N = V c (Pipeline.arrRef spec1 2) :=
  ((dats (Ix := Ix) (Name := Name) (U := U) (Lvl := Lvl) V Rec 0 c).arrAt_in 2 rfl _).trans (A_eq V Rec c 2)

end Cert.KernelIdeal.Region

end
-- ==== Proof.KILaunch.lean ====
/-
  The launch: the launch element of the ghost state, the TensorCore's @main — the reshape of the index, the call
  of the sequencer's kernel, the affine map's region — and how the final memory reads the claim.
-/
import proofs.«211337_g9826885173858_cont_9to1_m_1014_11_alg».proof.Proof.KIBody
import proofs.«211337_g9826885173858_cont_9to1_m_1014_11_alg».proof.Proof.KIRegionBody
import proofs.«211337_g9826885173858_cont_9to1_m_1014_11_alg».proof.Proof.KIRegionValue

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds, the staging cells' rounds; nothing of the kernel's own -/

/-- What the launch deals device `d`'s TensorCore for the region: its pipeline's staging cells and duty tokens. -/
def G (d : Dev nD) : sProp 𝕄 :=
  iprop((bigSep Finset.univ fun p : Fin 1 => Pipeline.cellsGhost cfgs (EP (F := F)) p d) ∗ bigSep Finset.univ fun p : Fin 1 => Pipeline.toksInit cfgs (EP (F := F)) p d)

def u₀ : UU := (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hc, Ht⟩
  imodintro
  isplitl [HH]; · iexact HH
  isplitl [Hc Ht]
  · unfold G
    rw [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev g' : DevRef τ sig := Proc.devRef .tc (main_v1_0 : Ref sig .tc)
abbrev b' : DevRef τ sig := Proc.devRef .tc (main_v1_1 : Ref sig .tc)
abbrev o' : DevRef τ sig := Proc.devRef .tc (main_v2 : Ref sig .tc)
/-- The reshape of the scalar index to a one-element array. -/
abbrev opR : HloOp τ sig (Elt F) := StableHlo.reshape main_arg1 main_v0 rfl shapeCasts_S_S1

/-- The TensorCore's arrays, all unscoped. -/
abbrev S8 : Finset (DevRef τ sig) := {a0', a1', a2', a3', v0', g', b', o'}

omit [FloatOps F] in
theorem held_S8 (d : Dev nD) (W : Valuation τ sig (Elt F)) :
    (held (T d) S8 W : sProp 𝕄) = iprop((featLoc d ↦{fullShare} W a0') ∗ (idLoc d ↦{fullShare} W a1') ∗ (gamLoc d ↦{fullShare} W a2') ∗ (betLoc d ↦{fullShare} W a3')
      ∗ (idxLoc d ↦{fullShare} W v0') ∗ (growLoc d ↦{fullShare} W g') ∗ (browLoc d ↦{fullShare} W b') ∗ outLoc d ↦{fullShare} W o') := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((featLoc d ↦{fullShare} W main_arg0) ∗ (idLoc d ↦{fullShare} W main_arg1) ∗ (gamLoc d ↦{fullShare} W main_arg2) ∗ (betLoc d ↦{fullShare} W main_arg3)
      ∗ (idxLoc d ↦{fullShare} W main_v0) ∗ (growLoc d ↦{fullShare} W main_v1_0) ∗ (browLoc d ↦{fullShare} W main_v1_1) ∗ outLoc d ↦{fullShare} W main_v2) := by
  unfold unscopedBufs
  rw [show (Finset.univ.filter fun b : Ref sig .tc => ¬ b.isScoped) = {main_arg0, main_arg1, main_arg2, main_arg3, main_v0, main_v1_0, main_v1_1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the one after the reshape. -/
def V0 (d : Dev nD) : Valuation τ sig (Elt F) := fun b => m (d, b)
def V1 (d : Dev nD) : Valuation τ sig (Elt F) := (opR (F := F)).result (V0 m d)

theorem unscoped_held (d : Dev nD) : (unscopedBufs d (fun b => m ((SparseCore.T d).loc b)) : sProp 𝕄) = held (T d) S8 (V0 m d) := by
  rw [unscopedBufs_eq, held_S8]; rfl

theorem hR : (opR (F := F)).bufs ⊆ S8 := show ({a1', v0'} : Finset (DevRef τ sig)) ⊆ S8 by decide

theorem V1_ne (d : Dev nD) {r : Ref sig .tc} (h : r ≠ main_v0) : V1 m d (Proc.devRef .tc r) = m ((SparseCore.T d).loc r) := by
  unfold V1 opR; rw [StableHlo.reshape_result_ne' _ _ _ _ _ h]; rfl

/-- Under the precondition the reshaped index array holds 1. -/
theorem V1_v0 (hid : ∀ d, m (idLoc d) = fun _ => (1#32 : BitVec 32)) (d : Dev nD) : V1 m d v0' = idxOne (F := F) d := by
  unfold V1 opR; rw [StableHlo.reshape_result']
  funext i
  show shapeCast _ (V0 m d a1') _ i = _
  rw [show V0 m d a1' = m (idLoc d) from rfl, hid d]
  rfl

/-- What the call takes for the one SparseCore of its grid, and what it hands back. -/
theorem st0_eq (d : Dev nD) : (bigSep Finset.univ fun c : Fin ((K (F := F)).nCore 0) => (P m).st 0 d c) = stRes m d := by
  show (bigSep (Finset.univ : Finset (Fin 1)) fun _ => stRes m d) = _
  rw [show (Finset.univ : Finset (Fin 1)) = {0} by decide, bigSep_singleton]
theorem dn0_eq (d : Dev nD) : (bigSep Finset.univ fun c : Fin ((K (F := F)).nCore 0) => (P m).dn 0 d c) = dnRes m d := by
  show (bigSep (Finset.univ : Finset (Fin 1)) fun _ => dnRes m d) = _
  rw [show (Finset.univ : Finset (Fin 1)) = {0} by decide, bigSep_singleton]

/-! ## The affine map's region -/

/-- The contents of the TensorCore's arrays when the region is entered: as launched, but the index array at 1 and
    the two one-row arrays at row 1 of the tables. -/
def VE (d : Dev nD) : Valuation τ sig (Elt F) :=
  Function.update (Function.update (Function.update (V0 m d) v0' (idxOne (F := F) d)) g' (gRow m d)) b' (bRow m d)
def VR (c : Dev nD) (b : Ref sig .tc) : Buf (Elt F) ((c.tc : Thread nD τ).loc b) := VE m c (Proc.devRef .tc b)

omit [FloatOps F] in
theorem VR_of_ne (c : Dev nD) {r : Ref sig .tc} (h0 : Proc.devRef .tc r ≠ v0') (h1 : Proc.devRef .tc r ≠ g') (h2 : Proc.devRef .tc r ≠ b') :
    VR m c r = m ((SparseCore.T c).loc r) := by
  unfold VR VE
  rw [Function.update_of_ne h2, Function.update_of_ne h1, Function.update_of_ne h0]; rfl
omit [FloatOps F] in
theorem VR_v0 (c : Dev nD) : VR m c main_v0 = idxOne (F := F) c := by
  unfold VR VE
  rw [Function.update_of_ne (show v0' ≠ b' by decide), Function.update_of_ne (show v0' ≠ g' by decide), Function.update_self]
omit [FloatOps F] in
theorem VR_g (c : Dev nD) : VR m c main_v1_0 = gRow m c := by
  unfold VR VE
  rw [Function.update_of_ne (show g' ≠ b' by decide), Function.update_self]
omit [FloatOps F] in
theorem VR_b (c : Dev nD) : VR m c main_v1_1 = bRow m c := by
  unfold VR VE
  rw [Function.update_self]

/-- The one admissible contents of the (absent) prefetched tables. -/
abbrev adm : (p : Fin 1) → (pcfgs (F := F) p).Adm := fun p => (cfgs p).toPCfg_adm

/-- The wait pairs the TensorCore may have recorded when the region is entered: those at or below the level the
    launch's handshakes leave it at after the call. -/
abbrev RecT : Set (SemLoc sig × HIx 1) := {p | ∀ d : Dev nD, (K (F := F)).lev (SparseCore.T d, p.1) p.2 ≤ 8}

/-- The pipeline's proof data at the region-entry contents. -/
abbrev pdats : (p : Fin 1) → (c : Dev nD) → Pipeline.Dat τ (Elt F) (HIx 1) ℕ UU ℕ (Pipeline.pin (pcfgs (F := F)) adm p) c :=
  fun p c => Region.dats (VR m) (RecT (F := F)) p c

/-- What the region is entered from and what it leaves. -/
abbrev preR (c : Dev nD) : sProp 𝕄 :=
  iprop((pdats m 0 c).arrays ((pdats m 0 c).arrAt · 0) ∗ Pipeline.prefHeld (pcfgs (F := F) 0).pre c (fun _ => fullShare) (adm (F := F) 0).1
    ∗ (pdats m 0 c).owesAt none 0 ∗ (∃ r, prngReg c r) ∗ Pipeline.unscopedRest spec1 c (VR m c))
abbrev postR (c : Dev nD) : sProp 𝕄 :=
  iprop((pdats m 0 c).arrays ((pdats m 0 c).arrAt · (Pipeline.pin (pcfgs (F := F)) adm 0).N) ∗ (pdats m 0 c).owesAt none (Fin.last (Pipeline.pin (pcfgs (F := F)) adm 0).N)
    ∗ (∃ r, prngReg c r) ∗ Pipeline.unscopedRest spec1 c (VR m c))

def R : Pipeline.RegionSeg (pcfgs (F := F)) adm (pdats m) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (Region.body_obligation (VR m) (RecT (F := F)) c none).loose
  hwaits c := Pipeline.hwaits_of_owed_zero (pcfgs (F := F)) adm (pdats m) none (K (F := F)).L (K (F := F)).lev 0 (fun c t => Region.owed_eq (VR m) (RecT (F := F)) c t) c
  pre := preR m
  post := postR m
  X c := iprop(∃ r, prngReg c r)
  Y c := iprop(∃ r, prngReg c r)
  Z c := Pipeline.unscopedRest spec1 c (VR m c)
  hentry c := by
    iintro ⟨H, -, -⟩; imodintro; iexact H
  hin c := by
    rw [show (pdats m 0 c).Φ 0 = Region.Φrest c from Region.Φ_eq (VR m) (RecT (F := F)) c 0, Region.Φrest_eq]
    iintro ⟨HX, -, Hs⟩
    isplitl [Hs]; · iexact Hs
    iexact HX
  hout c := by
    rw [show (pdats m 0 c).Φ (Fin.last _) = Region.Φrest c from Region.Φ_eq (VR m) (RecT (F := F)) c _, Region.Φrest_eq, Pipeline.ownSems0_none]
    iintro ⟨Hs, HX⟩
    isplitl [HX]; · iexact HX
    isplitr; · iempintro
    iexact Hs
  hexit c := by
    iintro H; imodintro; iexact H

theorem Otc_one (d : Dev nD) : (K (F := F)).Otc d 1 = 0 := by
  unfold SparseCore.Cfg.Otc
  rw [show (Finset.univ : Finset (Fin 1)) = {0} by decide, Finset.sum_singleton]
  rfl

/-- The TensorCore's handshake state, less what it owes. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := rfl

theorem G_eq (d : Dev nD) : (G (F := F) d : sProp 𝕄) = iprop(Pipeline.cellsGhost cfgs (EP (F := F)) 0 d ∗ Pipeline.toksInit cfgs (EP (F := F)) 0 d) := by
  unfold G
  rw [show (Finset.univ : Finset (Fin 1)) = {0} by decide, bigSep_singleton, bigSep_singleton]

/-- What @main leaves the claim: the pipeline's arrays as the region left them, and the arrays it did not stage. -/
abbrev FIN (d : Dev nD) : sProp 𝕄 :=
  iprop((pdats m 0 d).arrays ((pdats m 0 d).arrAt · (Pipeline.pin (pcfgs (F := F)) adm 0).N) ∗ Pipeline.unscopedRest spec1 d (VR m d))

theorem prefHeld_emp (d : Dev nD) :
    (Pipeline.prefHeld (pcfgs (F := F) 0).pre d (fun _ => fullShare) (adm (F := F) 0).1 : sProp 𝕄) = iprop(emp) := by
  unfold Pipeline.prefHeld
  show (bigSep (Finset.univ : Finset (Fin 0)) _ : sProp 𝕄) = _
  rw [Finset.univ_eq_empty, bigSep_empty]
  rfl

theorem hmain (hid : ∀ d, m (idLoc d) = fun _ => (1#32 : BitVec 32)) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, Hts, Hprng⟩, HG⟩
  iapply (wp_hlo_within 𝒱 (SparseCore.T d) none Set.univ (op := opR) (S := S8) hR (V := V0 m d)) $$ [Hb Hheld]
  · isplitl [Hb]; · iexact Hb
    iexact Hheld
  iintro ⟨Hb, Hheld⟩
  ihave Hh := (Entails.of_eq (held_S8 (F := F) d _)) $$ Hheld
  icases Hh with ⟨Ha0, Ha1, Ha2, Ha3, Hv0, Hg, Hbr, Ho⟩
  rw [wp_ret]; imodintro
  rw [show (opR (F := F)).result (V0 m d) v0' = idxOne (F := F) d from V1_v0 m hid d,
    show (opR (F := F)).result (V0 m d) a0' = m (featLoc d) from V1_ne m d (by decide),
    show (opR (F := F)).result (V0 m d) a1' = m (idLoc d) from V1_ne m d (by decide),
    show (opR (F := F)).result (V0 m d) a2' = m (gamLoc d) from V1_ne m d (by decide),
    show (opR (F := F)).result (V0 m d) a3' = m (betLoc d) from V1_ne m d (by decide),
    show (opR (F := F)).result (V0 m d) o' = m (outLoc d) from V1_ne m d (by decide)]
  iapply ((K (F := F)).wp_run (D (F := F)) 𝒱 (EH := EH) (P := P m) κ d 0) $$ [Hst Hv0 Ha2 Ha3 Hg Hbr Hb Ha0 Ha1 Ho Hts Hprng HG]
  isplitr; · iexact Hctx
  isplitl [Hst]; · iexact Hst
  isplitl [Hv0 Ha2 Ha3 Hg Hbr]
  · rw [st0_eq]; unfold stRes
    isplitl [Hv0]; · iexact Hv0
    isplitl [Ha2]; · iexact Ha2
    isplitl [Ha3]; · iexact Ha3
    isplitl [Hg]; · iexists _; iexact Hg
    iexists _; iexact Hbr
  iintro ⟨Hst, Hdn⟩
  ihave Hdn' := (Entails.of_eq ((dn0_eq m d).trans (show dnRes m d = iprop((idxLoc d ↦{fullShare} idxOne d) ∗ (gamLoc d ↦{fullShare} m (gamLoc d)) ∗ (betLoc d ↦{fullShare} m (betLoc d))
    ∗ (growLoc d ↦{fullShare} gRow m d) ∗ browLoc d ↦{fullShare} bRow m d) from rfl))) $$ Hdn
  icases Hdn' with ⟨Hv0, Ha2, Ha3, Hg, Hbr⟩
  -- the arrays at the region-entry contents, sorted into the pipeline's arrays and the rest
  ihave HU := (Entails.of_eq (unscopedBufs_eq (F := F) d (VR m d)).symm) $$ [Ha0 Ha1 Ha2 Ha3 Hv0 Hg Hbr Ho]
  · rw [VR_of_ne m d (r := main_arg0) (by decide) (by decide) (by decide), VR_of_ne m d (r := main_arg1) (by decide) (by decide) (by decide),
      VR_of_ne m d (r := main_arg2) (by decide) (by decide) (by decide), VR_of_ne m d (r := main_arg3) (by decide) (by decide) (by decide),
      VR_v0, VR_g, VR_b, VR_of_ne m d (r := main_v2) (by decide) (by decide) (by decide)]
    isplitl [Ha0]; · iexact Ha0
    isplitl [Ha1]; · iexact Ha1
    isplitl [Ha2]; · iexact Ha2
    isplitl [Ha3]; · iexact Ha3
    isplitl [Hv0]; · iexact Hv0
    isplitl [Hg]; · iexact Hg
    isplitl [Hbr]; · iexact Hbr
    iexact Ho
  ihave HAR := (Pipeline.arrays_of_unscopedBufs (pcfgs (F := F)) adm (pdats m) launch1.win launch1.arr_whole d
      ((pdats m 0 d).share_full fun _ => rfl) (VR m d) (fun w => Region.A_eq (VR m) (RecT (F := F)) d w)) $$ HU
  icases HAR with ⟨Harr, Hrest⟩
  -- what the TensorCore owes, out of its handshake state
  ihave Hst' := (Entails.of_eq (tcSt_eq (F := F) d _)) $$ Hst
  icases Hst' with ⟨⟨%W, %hW, HO⟩, Hst2⟩
  ihave Hlev := ((K (F := F)).ctx_levAts (EH := EH) (P := P m) κ) $$ Hctx
  ihave HG' := (Entails.of_eq (G_eq (F := F) d)) $$ HG
  icases HG' with ⟨Hgc, Hgt⟩
  -- the region, entered through the lifted body table
  iapply (show wp frame (wpE (D (F := F)) 𝒱 (SparseCore.T d) none) Set.univ (Prog.lift (.customCall (Pipeline.entry 0) ())) _ ⊢ _ from
    (K (F := F)).wp_liftProg (D (F := F)) 𝒱 (SparseCore.T d) Set.univ none (Prog.lift (.customCall (Pipeline.entry 0) ())) _)
  iapply (Pipeline.RegionSeg.wp (pcfgs (F := F)) adm (pdats m) none cellOf_inj (EP (F := F)) defs₀ 𝒱₀ (K (F := F)).L (K (F := F)).lev (R m) d none
    (fun u hu => nomatch hu) (fun x => .ret x) _) $$ [Hst2 Hb Harr Hrest HO Hprng Hgc Hgt]
  isplitl [Hst2]
  · -- after the region: the handshake state again, and what the claim reads
    iintro ⟨-, Hpost0⟩
    ihave Hpost := (Entails.of_eq (show (R m).post d = postR m d from rfl)) $$ Hpost0
    icases Hpost with ⟨Harr, ⟨%W', %hW', HO⟩, -, Hrest⟩
    rw [wp_ret]; imodintro; imodintro
    isplitl [HO Hst2]
    · iapply (Entails.of_eq (tcSt_eq (F := F) d 1).symm)
      isplitl [HO]
      · iexists W'; isplitr
        · ipureintro
          intro p hp
          rcases hW' (Finset.mem_coe.mpr hp) with h | ⟨w, s, rfl⟩
          · rw [Region.recorded_eq] at h; exact h d
          · exact Nat.zero_le _
        · rw [Otc_one]; iexact HO
      · iexact Hst2
    · isplitl [Harr]; · iexact Harr
      iexact Hrest
  isplitl [Hb]; · iexact Hb
  isplitl [Harr Hrest HO Hprng]
  · iapply (Entails.of_eq (show preR m d = (R m).pre d from rfl))
    isplitl [Harr]; · iexact Harr
    isplitr; · rw [prefHeld_emp]; iempintro
    isplitl [HO]
    · iexists W; isplitr
      · ipureintro
        intro p hp
        refine Or.inl ?_
        rw [Region.recorded_eq]
        intro d'
        rw [Subsingleton.elim d' d]
        exact hW p (Finset.mem_coe.mp hp)
      · rw [show (K (F := F)).Otc d ((0 : Fin 1).val + 1) = 0 from Otc_one d]; iexact HO
    isplitl [Hprng]; · iexists _; iexact Hprng
    iexact Hrest
  isplitr; · iexact Hlev
  isplitl [Hgc]; · iexact Hgc
  iexact Hgt

/-! ## How the final memory reads the claim -/

def fq (d : Dev nD) (s' : Phys nD τ sig (Elt F)) : Prop :=
  (∀ w, s'.mem.mem (((pcfgs (F := F) 0).spec w).arr.view.loc (d.tc : Thread nD τ)) = (pdats m 0 d).arrAt w (Pipeline.pin (pcfgs (F := F)) adm 0).N)
    ∧ s'.mem.mem (idLoc d) = m (idLoc d) ∧ s'.mem.mem (gamLoc d) = m (gamLoc d) ∧ s'.mem.mem (betLoc d) = m (betLoc d)

theorem hfin (d : Dev nD) (s' : Phys nD τ sig (Elt F)) : iprop(FIN m d ∗ SI s') ⊢ (⌜fq m d s'⌝ : sProp 𝕄) := by
  iintro ⟨⟨Harr, Hrest⟩, HSI⟩
  ihave H1 := (Pipeline.arrays_read (pcfgs (F := F)) adm (pdats m) launch1.arr_whole d ((pdats m 0 d).share_full fun _ => rfl) _ s') $$ [Harr HSI]
  · isplitl [Harr] <;> iassumption
  icases H1 with ⟨%ha, HSI⟩
  ihave Hr := (Entails.of_eq (unscopedRest1_eq d (VR m d))) $$ Hrest
  icases Hr with ⟨Hi, Hg, Hb, -⟩
  icombine HSI Hi gives %h1
  icombine HSI Hg gives %h2
  icombine HSI Hb gives %h3
  ipureintro
  refine ⟨ha, ?_, ?_, ?_⟩
  · exact (funext fun i => h1 i (Finset.mem_univ i)).trans (VR_of_ne m d (by decide) (by decide) (by decide))
  · exact (funext fun i => h2 i (Finset.mem_univ i)).trans (VR_of_ne m d (by decide) (by decide) (by decide))
  · exact (funext fun i => h3 i (Finset.mem_univ i)).trans (VR_of_ne m d (by decide) (by decide) (by decide))

/-! ## The program's run -/

/-- The run's post: the result array holds the affine map of the arguments, which are unchanged. -/
def QC : PUnit × MemSt nD τ sig (Elt F) → Prop := fun r => ∀ c : Dev nD,
  r.2.mem (outLoc c) = (Cert.Spec.G (F := F) (m (featLoc c)) (m (gamLoc c)) (m (betLoc c)) : Cert.Spec.SB.Idx → Elt F .f32)
    ∧ r.2.mem (featLoc c) = m (featLoc c) ∧ r.2.mem (idLoc c) = m (idLoc c) ∧ r.2.mem (gamLoc c) = m (gamLoc c) ∧ r.2.mem (betLoc c) = m (betLoc c)

theorem hQ (s' : Phys nD τ sig (Elt F)) (h : ∀ d, fq m d s') : QC m (⟨⟩, s'.mem) := by
  intro c
  obtain ⟨ha, h1, h2, h3⟩ := h c
  refine ⟨?_, ?_, h1, h2, h3⟩
  · refine (ha 3).trans ((Region.final3 (VR m) (RecT (F := F)) c).trans ?_)
    rw [VR_of_ne m c (r := main_arg0) (by decide) (by decide) (by decide), VR_g, VR_b]
    exact (Cert.Spec.G_eq_affine _ _ _).symm
  · exact (ha 0).trans ((Region.kept0 (VR m) (RecT (F := F)) c).trans (VR_of_ne m c (by decide) (by decide) (by decide)))

theorem run_main [∀ e, Nonempty (Elt F e)] (hid : ∀ d, m (idLoc d) = fun _ => (1#32 : BitVec 32)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (G (F := F)) (FIN m) (u₀ (F := F)) (sep_elim_left.trans (hu₀ m)) (hmain m ρ hid) (fq m) (hfin m) (QC m) (hQ m)

end Cert.KernelIdeal.Run

end
-- ==== Proof.KSetup.lean ====
/-
  The program as the SparseCore launch theorem sees it, and what the launch hands to whom.
  The program: the scalar index is reshaped to a one-element array; ONE sequencer (SparseCore 0's) copies that
  element into its scalar memory, reads it, and copies the row of the scale table and the row of the shift table
  it names out into two one-row arrays; the TensorCore then applies the affine map block by block.
  The ghost state has three parts side by side: the launch handshakes' rounds, the pipeline's staging cells'
  rounds, and the counters of the sequencer's own local copies.
  The call hands the sequencer the index array (holding 1 everywhere: the precondition), both tables and the two
  one-row arrays, and takes them back with the one-row arrays holding row 1 of each table.
-/
import proofs.«211337_g9826885173858_cont_9to1_m_1014_11_alg».proof.Defs
import proofs.«211337_g9826885173858_cont_9to1_m_1014_11_alg».proof.Proof.Spec
import proofs.«211337_g9826885173858_cont_9to1_m_1014_11_alg».proof.Proof.Gen.Kernel
import proofs.«211337_g9826885173858_cont_9to1_m_1014_11_alg».proof.Proof.Gen.Kernel.Skeleton
import proofs.«211337_g9826885173858_cont_9to1_m_1014_11_alg».proof.Proof.Gen.Kernel.Launch
import proofs.«211337_g9826885173858_cont_9to1_m_1014_11_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the copies' counters -/

abbrev UH : Type := URounds (GSem nD τ sig) ℕ
abbrev UU : Type := UH × (UR sig nD τ × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor. -/
abbrev EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ (MT nD τ sig (HIx 1) (Elt F) ℕ UU ℕ)) := by
  unfold EP; infer_instance

/-! ## The launch memory and the arrays -/

variable (m : (ℓ : Loc nD τ sig) → Buf (Elt F) ℓ) (ρ : Dev nD → PrngReg)

abbrev featLoc (d : Dev nD) : Loc nD τ sig := (SparseCore.T d).loc main_arg0
abbrev idLoc (d : Dev nD) : Loc nD τ sig := (SparseCore.T d).loc main_arg1
abbrev gamLoc (d : Dev nD) : Loc nD τ sig := (SparseCore.T d).loc main_arg2
abbrev betLoc (d : Dev nD) : Loc nD τ sig := (SparseCore.T d).loc main_arg3
abbrev idxLoc (d : Dev nD) : Loc nD τ sig := (SparseCore.T d).loc main_v0
abbrev growLoc (d : Dev nD) : Loc nD τ sig := (SparseCore.T d).loc main_v1_0
abbrev browLoc (d : Dev nD) : Loc nD τ sig := (SparseCore.T d).loc main_v1_1
abbrev outLoc (d : Dev nD) : Loc nD τ sig := (SparseCore.T d).loc main_v2

/-- The one-element index array holding 1. -/
def idxOne (d : Dev nD) : Buf (Elt F) (idxLoc d) := fun _ => (1#32 : BitVec 32)
/-- Row 1 of the scale table and of the shift table, as the one-row arrays' contents. -/
def gRow (d : Dev nD) : Buf (Elt F) (growLoc d) := (Cert.Spec.tableRow1 (m (gamLoc d)) : Cert.Spec.SR.Idx → Elt F .f32)
def bRow (d : Dev nD) : Buf (Elt F) (browLoc d) := (Cert.Spec.tableRow1 (m (betLoc d)) : Cert.Spec.SR.Idx → Elt F .f32)

variable [FloatOps F]

/-- What the call hands SparseCore 0's sequencer: the index array at 1, the two tables as launched, the two
    one-row arrays at whatever they hold. -/
def stRes (d : Dev nD) : sProp 𝕄 :=
  iprop((idxLoc d ↦{fullShare} idxOne d) ∗ (gamLoc d ↦{fullShare} m (gamLoc d)) ∗ (betLoc d ↦{fullShare} m (betLoc d))
    ∗ (∃ f, growLoc d ↦{fullShare} f) ∗ ∃ f, browLoc d ↦{fullShare} f)
/-- What it takes back: the same, the one-row arrays at row 1 of each table. -/
def dnRes (d : Dev nD) : sProp 𝕄 :=
  iprop((idxLoc d ↦{fullShare} idxOne d) ∗ (gamLoc d ↦{fullShare} m (gamLoc d)) ∗ (betLoc d ↦{fullShare} m (betLoc d))
    ∗ (growLoc d ↦{fullShare} gRow m d) ∗ browLoc d ↦{fullShare} bRow m d)

instance stRes_storable (d : Dev nD) : BI.Storable (upEmb : UEmb _ 𝕄) (stRes m d) := by
  unfold stRes; infer_instance
instance dnRes_storable (d : Dev nD) : BI.Storable (upEmb : UEmb _ 𝕄) (dnRes m d) := by
  unfold dnRes; infer_instance

/-- Call 0's payloads; the kernel's proof consumes nothing of the launch's. -/
def P : (K (F := F)).Pay (nD := nD) (Val := Elt F) (Name := ℕ) (U := UU) where
  st := fun _ d _ => stRes m d
  dn := fun _ d _ => dnRes m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Kernel.Run

end
-- ==== Proof.KBody.lean ====
/-
  The sequencer's kernel, run once at a symbolic place: three local copies, each issued and waited for on its own
  semaphore — the index array into scalar memory; then, the word read there being 1, row 1 of the scale table
  into the first one-row array and row 1 of the shift table into the second.
-/
import proofs.«211337_g9826885173858_cont_9to1_m_1014_11_alg».proof.Proof.KSetup

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "idxW" => (Memref.whole Cert.Kernel.main_v0_scs : Memref Cert.Kernel.sig Kind.scScalar Space.hbm Cert.Kernel.S1 EltTy.i32)
local notation "gamW" => (Memref.whole Cert.Kernel.main_arg2_scs : Memref Cert.Kernel.sig Kind.scScalar Space.hbm Cert.Kernel.S2x4096 EltTy.f32)
local notation "betW" => (Memref.whole Cert.Kernel.main_arg3_scs : Memref Cert.Kernel.sig Kind.scScalar Space.hbm Cert.Kernel.S2x4096 EltTy.f32)
local notation "growW" => (Memref.whole Cert.Kernel.main_v1_0_scs : Memref Cert.Kernel.sig Kind.scScalar Space.hbm Cert.Kernel.S1x4096 EltTy.f32)
local notation "browW" => (Memref.whole Cert.Kernel.main_v1_1_scs : Memref Cert.Kernel.sig Kind.scScalar Space.hbm Cert.Kernel.S1x4096 EltTy.f32)
local notation "scrW" => (Memref.whole Cert.Kernel.cc0_scratch0 : Memref Cert.Kernel.sig Kind.scScalar Space.smem Cert.Kernel.S1 EltTy.i32)

variable [FloatOps F]

section Body

variable (d : Dev nD)

def coordsS (c : Fin (grid0.bound 0)) : grid0.Coords := fun | 0 => c | ⟨_ + 1, h⟩ => absurd h (Nat.not_lt.2 (Nat.le_add_left _ _))

/-- SparseCore 0's sequencer thread. -/
abbrev S0 (h : 0 < grid0.bound 0) : Thread nD τ := S d ((⟨0, h⟩ : Fin (grid0.bound 0)).castLE hcore0)

/-- The sequencer's three semaphores and its scalar-memory word. -/
abbrev cellA (c : Fin τ.nSC) : GSem nD τ sig := (S d c, .dma cc0_scoped0.sem)
abbrev cellB (c : Fin τ.nSC) : GSem nD τ sig := (S d c, .dma cc0_scoped1.sem)
abbrev cellC (c : Fin τ.nSC) : GSem nD τ sig := (S d c, .dma cc0_scoped2.sem)
abbrev scrLoc (c : Fin τ.nSC) : Loc nD τ sig := (S d c).loc cc0_scratch0

omit [FloatOps F] in
/-- The sequencer's three semaphores are among its own: they are those three counters and the rest. -/
theorem ownSems0_S3 (c : Fin τ.nSC) :
    (ownSems0 (S d c) : sProp 𝕄) = iprop(semVal (cellA d c) 0 ∗ semVal (cellB d c) 0 ∗ semVal (cellC d c) 0
      ∗ bigSep ((((ownCells (S d c)).erase (cellA d c)).erase (cellB d c)).erase (cellC d c)) fun g => semVal g 0) := by
  have hBA : (SemLoc.dma cc0_scoped1.sem : SemLoc sig) ≠ SemLoc.dma cc0_scoped0.sem := by decide
  have hCB : (SemLoc.dma cc0_scoped2.sem : SemLoc sig) ≠ SemLoc.dma cc0_scoped1.sem := by decide
  have hCA : (SemLoc.dma cc0_scoped2.sem : SemLoc sig) ≠ SemLoc.dma cc0_scoped0.sem := by decide
  unfold SparseCore.Cfg.ownSems0
  rw [SparseCore.bigSep_erase' ((mem_ownCells (g := cellA d c)).mpr ⟨rfl, by show (SemLoc.dma cc0_scoped0.sem : SemLoc sig).isScoped .scScalar = true; decide⟩),
    SparseCore.bigSep_erase' (i := cellB d c) (Finset.mem_erase.mpr ⟨fun e => hBA (congrArg Prod.snd e),
      (mem_ownCells (g := cellB d c)).mpr ⟨rfl, by show (SemLoc.dma cc0_scoped1.sem : SemLoc sig).isScoped .scScalar = true; decide⟩⟩),
    SparseCore.bigSep_erase' (i := cellC d c) (Finset.mem_erase.mpr ⟨fun e => hCB (congrArg Prod.snd e),
      Finset.mem_erase.mpr ⟨fun e => hCA (congrArg Prod.snd e),
        (mem_ownCells (g := cellC d c)).mpr ⟨rfl, by show (SemLoc.dma cc0_scoped2.sem : SemLoc sig).isScoped .scScalar = true; decide⟩⟩⟩)]

omit [FloatOps F] in
/-- The scalar-memory word is among the sequencer's own buffers: they are it, at some contents, and the rest. -/
theorem ownBufs_S (c : Fin τ.nSC) :
    (ownBufs (S d c) : sProp 𝕄)
      = iprop((∃ f, scrLoc d c ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

omit [FloatOps F] in
/-- The arrays as the sequencer's memrefs address them are the TensorCore's arrays. -/
theorem pts_idx (c : Fin τ.nSC) (f : Buf (Elt F) (idxLoc d)) : ((idxW).view.loc (S d c) ↦{fullShare} f : sProp 𝕄) = idxLoc d ↦{fullShare} f := by
  simp only [Memref.view_whole, View.set_whole]
omit [FloatOps F] in
theorem pts_gam (c : Fin τ.nSC) (f : Buf (Elt F) (gamLoc d)) : ((gamW).view.loc (S d c) ↦{fullShare} f : sProp 𝕄) = gamLoc d ↦{fullShare} f := by
  simp only [Memref.view_whole, View.set_whole]
omit [FloatOps F] in
theorem pts_bet (c : Fin τ.nSC) (f : Buf (Elt F) (betLoc d)) : ((betW).view.loc (S d c) ↦{fullShare} f : sProp 𝕄) = betLoc d ↦{fullShare} f := by
  simp only [Memref.view_whole, View.set_whole]
omit [FloatOps F] in
theorem pts_grow (c : Fin τ.nSC) (f : Buf (Elt F) (growLoc d)) : ((growW).view.loc (S d c) ↦{fullShare} f : sProp 𝕄) = growLoc d ↦{fullShare} f := by
  simp only [Memref.view_whole, View.set_whole]
omit [FloatOps F] in
theorem pts_brow (c : Fin τ.nSC) (f : Buf (Elt F) (browLoc d)) : ((browW).view.loc (S d c) ↦{fullShare} f : sProp 𝕄) = browLoc d ↦{fullShare} f := by
  simp only [Memref.view_whole, View.set_whole]
omit [FloatOps F] in
theorem pts_scr (c : Fin τ.nSC) (f : Buf (Elt F) (scrLoc d c)) : ((scrW).view.loc (S d c) ↦{fullShare} f : sProp 𝕄) = scrLoc d c ↦{fullShare} f := by
  simp only [Memref.view_whole, View.set_whole]

theorem body₀ (h : 0 < grid0.bound 0) (O : CellTallies nD τ sig (HIx 1)) (W : Waits sig (HIx 1)) (hO : ∀ g, O g none = 0) :
    iprop(levAts (K (F := F)).L (K (F := F)).lev ∗ emp ∗ stRes m d
        ∗ scopedBufs (S0 d h) ∗ scopedSems0 (S0 d h) ∗ owes (S0 d h) O W)
      ⊢ wp frame (wpE (defs₀ (F := F)) 𝒱₀ (S0 d h) none) Set.univ
          (cc0__sc_gather_body (coordsS ⟨0, h⟩) idxW (Memref.isWhole_whole _) gamW (Memref.isWhole_whole _) betW (Memref.isWhole_whole _)
            growW (Memref.isWhole_whole _) browW (Memref.isWhole_whole _) scrW (Memref.isWhole_whole _) cc0_scoped0 cc0_scoped1 cc0_scoped2)
          fun _ => iprop(dnRes m d ∗ scopedBufs (S0 d h) ∗ scopedSems0 (S0 d h) ∗ ∃ W', ⌜∀ p ∈ W', p ∈ W ∨ p.2 = none⌝ ∗ owes (S0 d h) O W') := by
  have k0_h1 : k0_cond1 (coordsS ⟨0, h⟩) = 1#1 := by decide +revert
  simp only [cc0__sc_gather_body_eq_skeleton]; unfold cc0__sc_gather_body_skel
  unfold stRes
  iintro ⟨#Hlv, -, ⟨Hidx, Hg, Hb, ⟨%fg, Hgr⟩, %fb, Hbr⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S3 (F := F) d (((⟨0, h⟩ : Fin (grid0.bound 0))).castLE hcore0))) $$ Hown
  icases Hown' with ⟨HsA, HsB, HsC, Hrest⟩
  ihave Hsb' := ((K (F := F)).scopedBufs_S_elim (Val := Elt F) facts d (((⟨0, h⟩ : Fin (grid0.bound 0))).castLE hcore0)) $$ Hsb
  icases Hsb' with ⟨Hob, Hvb⟩
  ihave Hob' := (Entails.of_eq (ownBufs_S (F := F) d (((⟨0, h⟩ : Fin (grid0.bound 0))).castLE hcore0))) $$ Hob
  icases Hob' with ⟨⟨%fs, Hscr⟩, Hbrest⟩
  ihave Hmw := ((K (F := F)).mayWaits_none (thr := S0 d h) hO) $$ Hlv
  ihave Hidx' := (Entails.of_eq (pts_idx (F := F) d (((⟨0, h⟩ : Fin (grid0.bound 0))).castLE hcore0) _).symm) $$ Hidx
  ihave Hg' := (Entails.of_eq (pts_gam (F := F) d (((⟨0, h⟩ : Fin (grid0.bound 0))).castLE hcore0) _).symm) $$ Hg
  ihave Hb' := (Entails.of_eq (pts_bet (F := F) d (((⟨0, h⟩ : Fin (grid0.bound 0))).castLE hcore0) _).symm) $$ Hb
  ihave Hgr' := (Entails.of_eq (pts_grow (F := F) d (((⟨0, h⟩ : Fin (grid0.bound 0))).castLE hcore0) _).symm) $$ Hgr
  ihave Hbr' := (Entails.of_eq (pts_brow (F := F) d (((⟨0, h⟩ : Fin (grid0.bound 0))).castLE hcore0) _).symm) $$ Hbr
  ihave Hscr' := (Entails.of_eq (pts_scr (F := F) d (((⟨0, h⟩ : Fin (grid0.bound 0))).castLE hcore0) _).symm) $$ Hscr
  sl_exec
  have hr : body₀.sl.r d h fs = (1#32 : BitVec 32) := by
    unfold body₀.sl.r body₀.sl.dma0
    simp only [Memref.view_whole, View.write_whole_univ, View.readAt_apply, View.read_whole]
    rfl
  have hchk : k0_chk1 (coordsS ⟨0, h⟩) (body₀.sl.r d h fs) := by
    rw [hr]; intro _; decide
  sl_exec
  have hgRow : View.write (Elt F) (growW).view fg (body₀.sl.dma0_1 m d h k0_h1 fs hchk) Finset.univ = gRow m d := by
    simp only [Memref.view_whole, View.write_whole_univ]
    unfold body₀.sl.dma0_1
    funext y
    refine ((View.read_apply _ _).trans (cast_eq _ _)).trans ?_
    unfold gRow Cert.Spec.tableRow1
    refine congrArg (m (gamLoc d)) ?_
    funext a; apply Fin.ext
    have hy0 : (y 0).val < 1 := (y 0).isLt
    have hoff0 : (k0_off1 (body₀.sl.r d h fs)) 0 = 1 := by rw [hr]; rfl
    have hoff1 : (k0_off1 (body₀.sl.r d h fs)) 1 = 0 := rfl
    match a with
    | ⟨0, _⟩ =>
      show (k0_off1 (body₀.sl.r d h fs)) 0 + 1 * (y 0).val = 1
      omega
    | ⟨1, _⟩ =>
      show (k0_off1 (body₀.sl.r d h fs)) 1 + 1 * (y 1).val = (y 1).val
      omega
  have hbRow : View.write (Elt F) (browW).view fb (body₀.sl.dma0_2 m d h k0_h1 fs hchk) Finset.univ = bRow m d := by
    simp only [Memref.view_whole, View.write_whole_univ]
    unfold body₀.sl.dma0_2
    funext y
    refine ((View.read_apply _ _).trans (cast_eq _ _)).trans ?_
    unfold bRow Cert.Spec.tableRow1
    refine congrArg (m (betLoc d)) ?_
    funext a; apply Fin.ext
    have hy0 : (y 0).val < 1 := (y 0).isLt
    have hoff0 : (k0_off1 (body₀.sl.r d h fs)) 0 = 1 := by rw [hr]; rfl
    have hoff1 : (k0_off1 (body₀.sl.r d h fs)) 1 = 0 := rfl
    match a with
    | ⟨0, _⟩ =>
      show (k0_off1 (body₀.sl.r d h fs)) 0 + 1 * (y 0).val = 1
      omega
    | ⟨1, _⟩ =>
      show (k0_off1 (body₀.sl.r d h fs)) 1 + 1 * (y 1).val = (y 1).val
      omega
  rw [hgRow, hbRow]
  sl_step
  isplitl [Hidx' Hg' Hb' Hgr' Hbr']
  · unfold dnRes
    isplitl [Hidx']; · iapply (Entails.of_eq (pts_idx (F := F) d _ _)); iexact Hidx'
    isplitl [Hg']; · iapply (Entails.of_eq (pts_gam (F := F) d _ _)); iexact Hg'
    isplitl [Hb']; · iapply (Entails.of_eq (pts_bet (F := F) d _ _)); iexact Hb'
    isplitl [Hgr']; · iapply (Entails.of_eq (pts_grow (F := F) d _ _)); iexact Hgr'
    iapply (Entails.of_eq (pts_brow (F := F) d _ _)); iexact Hbr'
  isplitl [Hscr' Hbrest Hvb]
  · iapply ((K (F := F)).scopedBufs_S_intro (Val := Elt F) facts d _)
    isplitl [Hscr' Hbrest]
    · rw [ownBufs_S]
      isplitl [Hscr']
      · iexists _; iapply (Entails.of_eq (pts_scr (F := F) d _ _)); iexact Hscr'
      · iexact Hbrest
    · iexact Hvb
  isplitl [HsA HsB HsC Hrest Hsubs]
  · iapply (SparseCore.Cfg.scopedSems0_S_intro (Val := Elt F) d _)
    isplitl [HsA HsB HsC Hrest]
    · rw [ownSems0_S3]
      isplitl [HsA]; · iexact HsA
      isplitl [HsB]; · iexact HsB
      isplitl [HsC]; · iexact HsC
      iexact Hrest
    · iexact Hsubs
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  · exact .inl hp

end Body

/-! ## The launch theorem's obligation -/

theorem defs₀_scalar (c : Fin τ.nSC) :
    defs₀ (F := F) (.scScalar c) 0 ()
      = SparseCore.onCore hcore0 (fun c => cc0__sc_gather_body (coordsS c) idxW (Memref.isWhole_whole _) gamW (Memref.isWhole_whole _) betW (Memref.isWhole_whole _)
          growW (Memref.isWhole_whole _) browW (Memref.isWhole_whole _) scrW (Memref.isWhole_whole _) cc0_scoped0 cc0_scoped1 cc0_scoped2) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar kernel's obligation at call 0: SparseCore 0's sequencer, the only one of the grid, runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ stRes m d ∗ _) ⊢ wp _ _ _ _ (fun _ => iprop(dnRes m d ∗ _))
  match c with
  | ⟨0, h⟩ => exact (body₀ m d h O W hO).trans (wp_mono frame _ _ fun _ => obl_post)

end Cert.Kernel.Run

end
-- ==== Proof.KRegionBody.lean ====
/-
  The affine map's pipelined call, as the region finds it: on each core the call walks the 32 row blocks of the
  feature array (512 rows of 4096 columns each), and at every block it multiplies the block, entry by entry, by the one
  scale row and adds the one shift row. This module states, over ANY contents `V` of the core's arrays at the moment the
  call is entered, what each staging buffer holds around the body at each block — the three inputs hold their blocks
  (the two one-row inputs are fetched once, at the first block, and are still in place at every later one), the output
  holds the body's result of the three —, proves the body's triple, and from it the body obligation of the pipeline.
  Everything is generic in the float instance and in the parameters of the logic.
-/
import proofs.«211337_g9826885173858_cont_9to1_m_1014_11_alg».proof.Proof.Gen.Kernel.Launch
import proofs.«211337_g9826885173858_cont_9to1_m_1014_11_alg».proof.Proof.Gen.Kernel.Skeleton
import proofs.«211337_g9826885173858_cont_9to1_m_1014_11_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel.Gen

variable {F : FTy → Type} [FloatOps F]
variable {Ix : Type} [DecidableEq Ix] {Name : Type} [DecidableEq Name] {U : Type} [URA U] {Lvl : Type}

local notation "𝕄" => MT nD τ sig Ix (Elt F) Name U Lvl

-- what each of a core's arrays holds when the call is entered
variable (V : (c : Dev nD) → (b : Ref sig .tc) → Buf (Elt F) ((c : Thread nD τ).loc b))

/-! ## The invariant the body does not touch -/

/-- The part of the core the body neither reads nor writes: its scoped buffers that are no staging buffer, at some
    contents, and its generator register at some state. -/
def Φrest (c : Dev nD) : sProp 𝕄 :=
  iprop(Pipeline.scopedRest (Ix := Ix) (Name := Name) (U := U) (Lvl := Lvl) (Val := Elt F) spec1 c ∗ ∃ r, prngReg c r)

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's buffer holds the feature block of the point, for any proof data over `V` whose body leaves
    that block in place. -/
theorem before0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The scale row's buffer holds the whole row at every point: it is fetched at the first point, and at a later point,
    not fetched again, it holds what the body left at the point before, which is the same row. -/
theorem before1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The shift row's buffer likewise. -/
theorem before2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 512 × 4096 buffer and the whole 1 × 4096 buffer, as the rectangles the body loads and stores through. -/
abbrev rBlk : Rect S512x4096 := Rect.unit (s := S512x4096) ![0, 0] S512x4096.size inb_S512x4096_S512x4096_0_0
abbrev rRow : Rect S1x4096 := Rect.unit (s := S1x4096) ![0, 0] S1x4096.size inb_S1x4096_S1x4096_0_0

theorem hz2 : (![0, 0] : Fin 2 → Nat) = fun _ => 0 := by
  funext a; match a with | ⟨0, _⟩ => rfl | ⟨1, _⟩ => rfl

/-! ## What the body leaves in the output window's buffer -/

/-- The output buffer after the body, from the contents of the three input buffers: its one store, through the whole
    buffer, of the product-plus-shift of what the three loads read. -/
def out3 (x0 : Vec F S512x4096 .f32) (x1 : Vec F S1x4096 .f32) (x2 : Vec F S1x4096 .f32) : Vec F S512x4096 .f32 :=
  View.canon [⟨rBlk, k1_pay1 (View.ld x0 rBlk) (View.ld x1 rRow) (View.ld x2 rRow)⟩]

/-- The one store is through the whole buffer, so it covers it. -/
theorem cover3 (p0 : Vec F S512x4096 .f32) (y : S512x4096.Idx) :
    ∃ pc ∈ ([⟨rBlk, p0⟩] : List (View.Piece (Elt F) S512x4096 .f32)), y ∈ pc.1.set :=
  ⟨_, List.mem_singleton_self _, View.mem_set_unit_zero hz2 inb_S512x4096_S512x4096_0_0 y⟩

/-- Loads and the store being through whole buffers, the result is the body's arithmetic of the three contents. -/
theorem out3_eq (x0 : Vec F S512x4096 .f32) (x1 : Vec F S1x4096 .f32) (x2 : Vec F S1x4096 .f32) :
    out3 x0 x1 x2 = k1_pay1 x0 x1 x2 := by
  unfold out3
  rw [View.canon_unit_zero hz2]
  simp only [View.ld_unit_zero (S := S512x4096) hz2, View.ld_unit_zero (S := S1x4096) hz2]

/-! ## The pipeline's proof data -/

-- a bound on the (semaphore, index) pairs the core's waits have recorded when the call is entered
variable (Rec : Set (SemLoc sig × Ix))

/-- The proof data of the call on core `c`: the arrays as the call finds them; after the body at point `t` each input's
    buffer still at its block and the output's at the body's result of the three input blocks; the untouched rest as the
    invariant at every point; nothing owed; full shares; the recorded pairs within `Rec` at every point. -/
def dats (_ : Fin 1) (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Φrest c
  q _ := fullShare
  owed _ := 0
  recorded _ := Rec

/-- The untouched rest, spelt out. -/
theorem Φrest_eq (c : Dev nD) : (Φrest c : sProp 𝕄)
    = iprop(Pipeline.scopedRest (Ix := Ix) (Name := Name) (U := U) (Lvl := Lvl) (Val := Elt F) spec1 c ∗ ∃ r, prngReg c r) := rfl

/-- The proof data's arrays are the contents the call finds. -/
theorem A_eq (c : Dev nD) (w : Fin cfg1.W) :
    (dats (Ix := Ix) (Name := Name) (U := U) (Lvl := Lvl) V Rec 0 c).A w = V c (Pipeline.arrRef spec1 w) := by
  dsimp only [dats]

/-- Its invariant is the untouched rest at every point, it owes nothing, its recorded pairs stay within `Rec`, and every
    share is full. -/
theorem Φ_eq (c : Dev nD) (t : Fin (cfg1.N + 1)) :
    (dats (Ix := Ix) (Name := Name) (U := U) (Lvl := Lvl) V Rec 0 c).Φ t = Φrest c := by
  dsimp only [dats]
theorem owed_eq (c : Dev nD) (t : Fin (cfg1.N + 1)) :
    (dats (Ix := Ix) (Name := Name) (U := U) (Lvl := Lvl) V Rec 0 c).owed t = 0 := by
  dsimp only [dats]
theorem recorded_eq (c : Dev nD) (t : Fin (cfg1.N + 1)) :
    (dats (Ix := Ix) (Name := Name) (U := U) (Lvl := Lvl) V Rec 0 c).recorded t = Rec := by
  dsimp only [dats]
theorem q_eq (c : Dev nD) (w : Fin cfg1.W) :
    (dats (Ix := Ix) (Name := Name) (U := U) (Lvl := Lvl) V Rec 0 c).q w = fullShare := by
  dsimp only [dats]

/-- What the body leaves, window by window. -/
theorem after0 (c : Dev nD) (t : Fin cfg1.N) :
    (dats (Ix := Ix) (Name := Name) (U := U) (Lvl := Lvl) V Rec 0 c).after 0 t = iblk V c 0 t := by dsimp only [dats]
theorem after1 (c : Dev nD) (t : Fin cfg1.N) :
    (dats (Ix := Ix) (Name := Name) (U := U) (Lvl := Lvl) V Rec 0 c).after 1 t = iblk V c 1 t := by dsimp only [dats]
theorem after2 (c : Dev nD) (t : Fin cfg1.N) :
    (dats (Ix := Ix) (Name := Name) (U := U) (Lvl := Lvl) V Rec 0 c).after 2 t = iblk V c 2 t := by dsimp only [dats]
theorem after3 (c : Dev nD) (t : Fin cfg1.N) :
    (dats (Ix := Ix) (Name := Name) (U := U) (Lvl := Lvl) V Rec 0 c).after 3 t
      = out3 (iblk V c 0 t) (iblk V c 1 t) (iblk V c 2 t) := by dsimp only [dats]

/-- Each input's current staging buffer holds its block at every point, fetched there or not. -/
theorem before0 (c : Dev nD) (t : Fin cfg1.N) (d) :
    (dats (Ix := Ix) (Name := Name) (U := U) (Lvl := Lvl) V Rec 0 c).before 0 t d = iblk V c 0 t :=
  before0_of V (dats (Ix := Ix) (Name := Name) (U := U) (Lvl := Lvl) V Rec 0 c) (A_eq V Rec c 0) (after0 V Rec c) t d
theorem before1 (c : Dev nD) (t : Fin cfg1.N) (d) :
    (dats (Ix := Ix) (Name := Name) (U := U) (Lvl := Lvl) V Rec 0 c).before 1 t d = iblk V c 1 t :=
  before1_of V (dats (Ix := Ix) (Name := Name) (U := U) (Lvl := Lvl) V Rec 0 c) (A_eq V Rec c 1) (after1 V Rec c) t d
theorem before2 (c : Dev nD) (t : Fin cfg1.N) (d) :
    (dats (Ix := Ix) (Name := Name) (U := U) (Lvl := Lvl) V Rec 0 c).before 2 t d = iblk V c 2 t :=
  before2_of V (dats (Ix := Ix) (Name := Name) (U := U) (Lvl := Lvl) V Rec 0 c) (A_eq V Rec c 2) (after2 V Rec c) t d

variable [Preorder Lvl]

/-! ## The body's triple -/

set_option maxHeartbeats 1000000 in
/-- The body on whole staging memrefs, the inputs' at read contents `x0 x1 x2` and the output's at anything, runs to
    the continuation holding the inputs' as they were and the output's at `out3` of them. -/
theorem sound_kernel (c : Dev nD) (E : Set Name) (i : grid1.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .f32) (harg4 : arg4.IsWhole)
    (x0 : Vec F S512x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc1__affine_body i arg1 harg1 arg2 harg2 arg3 harg3 arg4 harg4) K := by
  simp only [cc1__affine_body_eq_skeleton]; unfold cc1__affine_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The body obligation, at a generic point -/

/-- What the body is called with at point `t` (the windows one by one), -/
def bodyPre (c : Dev nD) (ι : Ix) (t : Fin cfg1.N) : sProp 𝕄 :=
  iprop((dats (Ix := Ix) (Name := Name) (U := U) (Lvl := Lvl) V Rec 0 c).Φ t.castSucc ∗ (dats (Ix := Ix) (Name := Name) (U := U) (Lvl := Lvl) V Rec 0 c).owesAt ι t.castSucc
    ∗ (∃ d, owns (c : Thread nD τ) (st1_0 t) fullShare ((dats (Ix := Ix) (Name := Name) (U := U) (Lvl := Lvl) V Rec 0 c).before 0 t d))
    ∗ (∃ d, owns (c : Thread nD τ) (st1_1 t) fullShare ((dats (Ix := Ix) (Name := Name) (U := U) (Lvl := Lvl) V Rec 0 c).before 1 t d))
    ∗ (∃ d, owns (c : Thread nD τ) (st1_2 t) fullShare ((dats (Ix := Ix) (Name := Name) (U := U) (Lvl := Lvl) V Rec 0 c).before 2 t d))
    ∗ (∃ d, owns (c : Thread nD τ) (st1_3 t) fullShare ((dats (Ix := Ix) (Name := Name) (U := U) (Lvl := Lvl) V Rec 0 c).before 3 t d)))

/-- and what it returns. -/
def bodyPost (c : Dev nD) (ι : Ix) (t : Fin cfg1.N) : sProp 𝕄 :=
  iprop((dats (Ix := Ix) (Name := Name) (U := U) (Lvl := Lvl) V Rec 0 c).Φ t.succ ∗ (dats (Ix := Ix) (Name := Name) (U := U) (Lvl := Lvl) V Rec 0 c).owesAt ι t.succ
    ∗ owns (c : Thread nD τ) (st1_0 t) fullShare ((dats (Ix := Ix) (Name := Name) (U := U) (Lvl := Lvl) V Rec 0 c).after 0 t)
    ∗ owns (c : Thread nD τ) (st1_1 t) fullShare ((dats (Ix := Ix) (Name := Name) (U := U) (Lvl := Lvl) V Rec 0 c).after 1 t)
    ∗ owns (c : Thread nD τ) (st1_2 t) fullShare ((dats (Ix := Ix) (Name := Name) (U := U) (Lvl := Lvl) V Rec 0 c).after 2 t)
    ∗ owns (c : Thread nD τ) (st1_3 t) fullShare ((dats (Ix := Ix) (Name := Name) (U := U) (Lvl := Lvl) V Rec 0 c).after 3 t))

/-- The body at any point: the inputs' memrefs hold their blocks, so the body's triple applies; the invariant and the
    core's dues pass through unread. -/
theorem sound_body (c : Dev nD) (ι : Ix) (t : Fin cfg1.N) :
    bodyPre (Name := Name) (U := U) (Lvl := Lvl) V Rec c ι t
      ⊢ wp frame (wpE (defs₀ (F := F)) Variants.none c none) Set.univ (bodyAt1 t) (fun _ => bodyPost (Name := Name) (U := U) (Lvl := Lvl) V Rec c ι t) := by
  unfold bodyPre bodyPost bodyAt1
  simp only [before0, before1, before2]
  rw [show (dats (Ix := Ix) (Name := Name) (U := U) (Lvl := Lvl) V Rec 0 c).Φ t.succ = (dats (Ix := Ix) (Name := Name) (U := U) (Lvl := Lvl) V Rec 0 c).Φ t.castSucc from rfl,
    show (dats (Ix := Ix) (Name := Name) (U := U) (Lvl := Lvl) V Rec 0 c).owesAt ι t.succ = (dats (Ix := Ix) (Name := Name) (U := U) (Lvl := Lvl) V Rec 0 c).owesAt ι t.castSucc from rfl,
    after0, after1, after2, after3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) (ι : Ix) :
    BodyObligation (dats (Ix := Ix) (Name := Name) (U := U) (Lvl := Lvl) V Rec 0 c) (defs₀ (F := F)) Variants.none ι Set.univ := fun t => by
  rw [bigSep_W1, bigSep_W1]
  exact sound_body V Rec c ι t

end Cert.Kernel.Region

end
-- ==== Proof.KRegionValue.lean ====
/-
  The output array of the affine map's pipelined call, as ONE function of the three arrays the call reads.

  Point `t` of the 32 works on rows 512·t … 512·t + 511 of the feature array. Inside a block, the body's result at
  row `p`, column `q` is  in(p, q) · g(0, q) + b(0, q): the cast of a one-row vector to its own shape is the identity and
  its broadcast to 512 rows reads row 0. The feature block at point `t` read at (p, q) is the feature array at
  (512·t + p, q), the two one-row blocks are the whole one-row arrays, and the output block sits at the same rows as
  the feature block. So what every point writes back is its block of the whole-array affine map; the 32 blocks cover
  the 16384 rows (row `r` lies in the block of point r / 512), hence the array ends holding that map. The three input
  arrays are never written.
-/
import proofs.«211337_g9826885173858_cont_9to1_m_1014_11_alg».proof.Proof.KRegionBody
import proofs.«211337_g9826885173858_cont_9to1_m_1014_11_alg».proof.Proof.Spec
import Idealize.ShloMosaic.Lib.Pipeline.Value
import Idealize.ShloMosaic.Lib.ValueIdx

set_option maxRecDepth 16384

noncomputable section

namespace Cert.Kernel.Region

open Idealize.ShloMosaic Idealize.ShloMosaic.TcCoe Idealize.SL.Sem Idealize.SL.RA
open Idealize.ShloMosaic.Pipeline (Dat)
open Idealize.ShloMosaic.ValueIdx
open Cert.Kernel.Gen

variable {F : FTy → Type} [FloatOps F]
variable {Ix : Type} [DecidableEq Ix] {Name : Type} [DecidableEq Name] {U : Type} [URA U] {Lvl : Type}

-- what each of a core's arrays holds when the call is entered
variable (V : (c : Dev nD) → (b : Ref sig .tc) → Buf (Elt F) ((c : Thread nD τ).loc b))
-- a bound on the (semaphore, index) pairs the core's waits have recorded when the call is entered
variable (Rec : Set (SemLoc sig × Ix))

/-! ## The body's arithmetic at an entry of the block -/

/-- Broadcasting a one-row vector to 512 rows reads, at row `p` and column `q`, row 0 at column `q`. -/
theorem broadcast_row_apply {α : Type} (x : S1x4096.Idx → α) (h : S1x4096.Broadcasts S512x4096) (p : Fin 512) (q : Fin 4096) :
    broadcastTo S512x4096 x h (ix2 p q) = x (ix2 (0 : Fin 1) q) :=
  broadcastTo_apply x h (ix2 p q) (ix2 (0 : Fin 1) q) (fun a => by match a with | ⟨0, _⟩ => rfl | ⟨1, _⟩ => rfl)

/-- The body's result at row `p`, column `q` of the block: the loaded entry times the scale row's entry of that column,
    plus the shift row's. -/
theorem pay_apply (x0 : Vec F S512x4096 .f32) (x1 : Vec F S1x4096 .f32) (x2 : Vec F S1x4096 .f32) (p : Fin 512) (q : Fin 4096) :
    k1_pay1 x0 x1 x2 (ix2 p q)
      = FloatOps.addf (FloatOps.mulf (x0 (ix2 p q)) (x1 (ix2 (0 : Fin 1) q))) (x2 (ix2 (0 : Fin 1) q)) := by
  unfold k1_pay1
  show FloatOps.addf (FloatOps.mulf (x0 (ix2 p q))
      (broadcastTo S512x4096 (shapeCast S1x4096 x1 shapeCasts_S1x4096_S1x4096) broadcasts_S1x4096_S512x4096 (ix2 p q)))
      (broadcastTo S512x4096 (shapeCast S1x4096 x2 shapeCasts_S1x4096_S1x4096) broadcasts_S1x4096_S512x4096 (ix2 p q)) = _
  rw [broadcast_row_apply, broadcast_row_apply, shapeCast_self, shapeCast_self]

/-! ## Where the blocks sit -/

/-- The printed index maps over the grid: the feature and the output windows are at block row `t`, block column 0; the
    two one-row windows are at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array affine map at an index. -/
theorem affine_apply (feat : FVec F Cert.Spec.SB .f32) (g b : FVec F Cert.Spec.SR .f32) (i : Cert.Spec.SB.Idx) :
    Cert.Spec.affine feat g b i = FloatOps.addf (FloatOps.mulf (feat i) (g (Cert.Spec.col i))) (b (Cert.Spec.col i)) := rfl

/-- WHAT POINT `t` WRITES BACK is block `t` of the affine map of the arrays as the call finds them. -/
theorem flushed3_eq (c : Dev nD) (t : Fin cfg1.N) :
    (dats (Ix := Ix) (Name := Name) (U := U) (Lvl := Lvl) V Rec 0 c).flushed 3 t
      = ((cfg1.win 3).blk t).view.read (Elt F) (Cert.Spec.affine (F := F) (V c main_arg0) (V c main_v1_0) (V c main_v1_1)) := by
  show (cfg1.win 3).cut (grid1.coords t) ((dats (Ix := Ix) (Name := Name) (U := U) (Lvl := Lvl) V Rec 0 c).after 3 t) = _
  rw [after3, out3_eq]
  obtain ⟨e00, e01, e10, e11, e20, e21, e30, e31⟩ := idx_facts t
  funext j
  obtain ⟨p, q, rfl⟩ : ∃ (p : Fin 512) (q : Fin 4096), j = ix2 p q := ⟨j 0, j 1, eq_ix2 j⟩
  show k1_pay1 (iblk V c 0 t) (iblk V c 1 t) (iblk V c 2 t) (ix2 p q)
    = Cert.Spec.affine (F := F) (V c main_arg0) (V c main_v1_0) (V c main_v1_1) (((cfg1.win 3).blk t).view.emb (ix2 p q))
  refine (pay_apply (iblk V c 0 t) (iblk V c 1 t) (iblk V c 2 t) p q).trans ?_
  rw [affine_apply]
  have h0 : iblk V c 0 t (ix2 p q) = V c main_arg0 (((cfg1.win 3).blk t).view.emb (ix2 p q)) := by
    show V c main_arg0 (((cfg1.win 0).blk t).view.emb (ix2 p q)) = V c main_arg0 (((cfg1.win 3).blk t).view.emb (ix2 p q))
    refine congrArg (V c main_arg0) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 4096 + 1 * q.val = win1_3.index t (1 : Fin 2) * 4096 + 1 * q.val; omega
  have h1 : iblk V c 1 t (ix2 (0 : Fin 1) q) = V c main_v1_0 (Cert.Spec.col (((cfg1.win 3).blk t).view.emb (ix2 p q))) := by
    show V c main_v1_0 (((cfg1.win 1).blk t).view.emb (ix2 (0 : Fin 1) q)) = V c main_v1_0 (Cert.Spec.col (((cfg1.win 3).blk t).view.emb (ix2 p q)))
    refine congrArg (V c main_v1_0) (funext fun a => Fin.ext ?_)
    match a with
    | ⟨0, _⟩ => show win1_1.index t (0 : Fin 2) * 1 + 1 * 0 = 0; omega
    | ⟨1, _⟩ => show win1_1.index t (1 : Fin 2) * 4096 + 1 * q.val = win1_3.index t (1 : Fin 2) * 4096 + 1 * q.val; omega
  have h2 : iblk V c 2 t (ix2 (0 : Fin 1) q) = V c main_v1_1 (Cert.Spec.col (((cfg1.win 3).blk t).view.emb (ix2 p q))) := by
    show V c main_v1_1 (((cfg1.win 2).blk t).view.emb (ix2 (0 : Fin 1) q)) = V c main_v1_1 (Cert.Spec.col (((cfg1.win 3).blk t).view.emb (ix2 p q)))
    refine congrArg (V c main_v1_1) (funext fun a => Fin.ext ?_)
    match a with
    | ⟨0, _⟩ => show win1_2.index t (0 : Fin 2) * 1 + 1 * 0 = 0; omega
    | ⟨1, _⟩ => show win1_2.index t (1 : Fin 2) * 4096 + 1 * q.val = win1_3.index t (1 : Fin 2) * 4096 + 1 * q.val; omega
  rw [h0, h1, h2]

/-! ## The blocks cover the array -/

/-- An index of the output array is in point `t`'s block iff each coordinate is in the block's range on its axis. -/
theorem mem_blk3 (t : Fin cfg1.N) (i : S16384x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v2).slice (win1_3.rect t)).set ↔ _
  rw [View.set_slice_whole, Rect.mem_set_unit]
  exact Iff.rfl

/-- Row `r` of the output array lies in the block of point r / 512, which writes its block back. -/
theorem covered3 (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  have hN : cfg1.N = 32 := N_1
  let t : Fin cfg1.N := ⟨(i 0).val / 512, by rw [hN]; omega⟩
  obtain ⟨e00, e01, e10, e11, e20, e21, e30, e31⟩ := idx_facts t
  have ht : t.val = (i 0).val / 512 := rfl
  refine ⟨t, flush1_3 t, ?_⟩
  rw [mem_blk3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 4096 ≤ (i 1).val ∧ (i 1).val < win1_3.index t (1 : Fin 2) * 4096 + 4096; omega

/-! ## The arrays after the call -/

/-- THE OUTPUT ARRAY after the call is the affine map of the arrays as the call finds them. -/
theorem final3 (c : Dev nD) :
    (dats (Ix := Ix) (Name := Name) (U := U) (Lvl := Lvl) V Rec 0 c).arrAt 3 cfg1.N
      = Cert.Spec.affine (F := F) (V c main_arg0) (V c main_v1_0) (V c main_v1_1) :=
  (dats (Ix := Ix) (Name := Name) (U := U) (Lvl := Lvl) V Rec 0 c).arrAt_eq_of_cover 3 _ (fun t _ => flushed3_eq V Rec c t) covered3

/-- The three input arrays are as the call found them. -/
theorem kept0 (c : Dev nD) :
    (dats (Ix := Ix) (Name := Name) (U := U) (Lvl := Lvl) V Rec 0 c).arrAt 0 cfg1.N = V c (Pipeline.arrRef spec1 0) :=
  ((dats (Ix := Ix) (Name := Name) (U := U) (Lvl := Lvl) V Rec 0 c).arrAt_in 0 rfl _).trans (A_eq V Rec c 0)
theorem kept1 (c : Dev nD) :
    (dats (Ix := Ix) (Name := Name) (U := U) (Lvl := Lvl) V Rec 0 c).arrAt 1 cfg1.N = V c (Pipeline.arrRef spec1 1) :=
  ((dats (Ix := Ix) (Name := Name) (U := U) (Lvl := Lvl) V Rec 0 c).arrAt_in 1 rfl _).trans (A_eq V Rec c 1)
theorem kept2 (c : Dev nD) :
    (dats (Ix := Ix) (Name := Name) (U := U) (Lvl := Lvl) V Rec 0 c).arrAt 2 cfg1.N = V c (Pipeline.arrRef spec1 2) :=
  ((dats (Ix := Ix) (Name := Name) (U := U) (Lvl := Lvl) V Rec 0 c).arrAt_in 2 rfl _).trans (A_eq V Rec c 2)

end Cert.Kernel.Region

end
-- ==== Proof.KLaunch.lean ====
/-
  The launch: the launch element of the ghost state, the TensorCore's @main — the reshape of the index, the call
  of the sequencer's kernel, the affine map's region — and how the final memory reads the claim.
-/
import proofs.«211337_g9826885173858_cont_9to1_m_1014_11_alg».proof.Proof.KBody
import proofs.«211337_g9826885173858_cont_9to1_m_1014_11_alg».proof.Proof.KRegionBody
import proofs.«211337_g9826885173858_cont_9to1_m_1014_11_alg».proof.Proof.KRegionValue

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds, the staging cells' rounds; nothing of the kernel's own -/

/-- What the launch deals device `d`'s TensorCore for the region: its pipeline's staging cells and duty tokens. -/
def G (d : Dev nD) : sProp 𝕄 :=
  iprop((bigSep Finset.univ fun p : Fin 1 => Pipeline.cellsGhost cfgs (EP (F := F)) p d) ∗ bigSep Finset.univ fun p : Fin 1 => Pipeline.toksInit cfgs (EP (F := F)) p d)

def u₀ : UU := (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hc, Ht⟩
  imodintro
  isplitl [HH]; · iexact HH
  isplitl [Hc Ht]
  · unfold G
    rw [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev g' : DevRef τ sig := Proc.devRef .tc (main_v1_0 : Ref sig .tc)
abbrev b' : DevRef τ sig := Proc.devRef .tc (main_v1_1 : Ref sig .tc)
abbrev o' : DevRef τ sig := Proc.devRef .tc (main_v2 : Ref sig .tc)
/-- The reshape of the scalar index to a one-element array. -/
abbrev opR : HloOp τ sig (Elt F) := StableHlo.reshape main_arg1 main_v0 rfl shapeCasts_S_S1

/-- The TensorCore's arrays, all unscoped. -/
abbrev S8 : Finset (DevRef τ sig) := {a0', a1', a2', a3', v0', g', b', o'}

omit [FloatOps F] in
theorem held_S8 (d : Dev nD) (W : Valuation τ sig (Elt F)) :
    (held (T d) S8 W : sProp 𝕄) = iprop((featLoc d ↦{fullShare} W a0') ∗ (idLoc d ↦{fullShare} W a1') ∗ (gamLoc d ↦{fullShare} W a2') ∗ (betLoc d ↦{fullShare} W a3')
      ∗ (idxLoc d ↦{fullShare} W v0') ∗ (growLoc d ↦{fullShare} W g') ∗ (browLoc d ↦{fullShare} W b') ∗ outLoc d ↦{fullShare} W o') := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((featLoc d ↦{fullShare} W main_arg0) ∗ (idLoc d ↦{fullShare} W main_arg1) ∗ (gamLoc d ↦{fullShare} W main_arg2) ∗ (betLoc d ↦{fullShare} W main_arg3)
      ∗ (idxLoc d ↦{fullShare} W main_v0) ∗ (growLoc d ↦{fullShare} W main_v1_0) ∗ (browLoc d ↦{fullShare} W main_v1_1) ∗ outLoc d ↦{fullShare} W main_v2) := by
  unfold unscopedBufs
  rw [show (Finset.univ.filter fun b : Ref sig .tc => ¬ b.isScoped) = {main_arg0, main_arg1, main_arg2, main_arg3, main_v0, main_v1_0, main_v1_1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the one after the reshape. -/
def V0 (d : Dev nD) : Valuation τ sig (Elt F) := fun b => m (d, b)
def V1 (d : Dev nD) : Valuation τ sig (Elt F) := (opR (F := F)).result (V0 m d)

theorem unscoped_held (d : Dev nD) : (unscopedBufs d (fun b => m ((SparseCore.T d).loc b)) : sProp 𝕄) = held (T d) S8 (V0 m d) := by
  rw [unscopedBufs_eq, held_S8]; rfl

theorem hR : (opR (F := F)).bufs ⊆ S8 := show ({a1', v0'} : Finset (DevRef τ sig)) ⊆ S8 by decide

theorem V1_ne (d : Dev nD) {r : Ref sig .tc} (h : r ≠ main_v0) : V1 m d (Proc.devRef .tc r) = m ((SparseCore.T d).loc r) := by
  unfold V1 opR; rw [StableHlo.reshape_result_ne' _ _ _ _ _ h]; rfl

/-- Under the precondition the reshaped index array holds 1. -/
theorem V1_v0 (hid : ∀ d, m (idLoc d) = fun _ => (1#32 : BitVec 32)) (d : Dev nD) : V1 m d v0' = idxOne (F := F) d := by
  unfold V1 opR; rw [StableHlo.reshape_result']
  funext i
  show shapeCast _ (V0 m d a1') _ i = _
  rw [show V0 m d a1' = m (idLoc d) from rfl, hid d]
  rfl

/-- What the call takes for the one SparseCore of its grid, and what it hands back. -/
theorem st0_eq (d : Dev nD) : (bigSep Finset.univ fun c : Fin ((K (F := F)).nCore 0) => (P m).st 0 d c) = stRes m d := by
  show (bigSep (Finset.univ : Finset (Fin 1)) fun _ => stRes m d) = _
  rw [show (Finset.univ : Finset (Fin 1)) = {0} by decide, bigSep_singleton]
theorem dn0_eq (d : Dev nD) : (bigSep Finset.univ fun c : Fin ((K (F := F)).nCore 0) => (P m).dn 0 d c) = dnRes m d := by
  show (bigSep (Finset.univ : Finset (Fin 1)) fun _ => dnRes m d) = _
  rw [show (Finset.univ : Finset (Fin 1)) = {0} by decide, bigSep_singleton]

/-! ## The affine map's region -/

/-- The contents of the TensorCore's arrays when the region is entered: as launched, but the index array at 1 and
    the two one-row arrays at row 1 of the tables. -/
def VE (d : Dev nD) : Valuation τ sig (Elt F) :=
  Function.update (Function.update (Function.update (V0 m d) v0' (idxOne (F := F) d)) g' (gRow m d)) b' (bRow m d)
def VR (c : Dev nD) (b : Ref sig .tc) : Buf (Elt F) ((c.tc : Thread nD τ).loc b) := VE m c (Proc.devRef .tc b)

omit [FloatOps F] in
theorem VR_of_ne (c : Dev nD) {r : Ref sig .tc} (h0 : Proc.devRef .tc r ≠ v0') (h1 : Proc.devRef .tc r ≠ g') (h2 : Proc.devRef .tc r ≠ b') :
    VR m c r = m ((SparseCore.T c).loc r) := by
  unfold VR VE
  rw [Function.update_of_ne h2, Function.update_of_ne h1, Function.update_of_ne h0]; rfl
omit [FloatOps F] in
theorem VR_v0 (c : Dev nD) : VR m c main_v0 = idxOne (F := F) c := by
  unfold VR VE
  rw [Function.update_of_ne (show v0' ≠ b' by decide), Function.update_of_ne (show v0' ≠ g' by decide), Function.update_self]
omit [FloatOps F] in
theorem VR_g (c : Dev nD) : VR m c main_v1_0 = gRow m c := by
  unfold VR VE
  rw [Function.update_of_ne (show g' ≠ b' by decide), Function.update_self]
omit [FloatOps F] in
theorem VR_b (c : Dev nD) : VR m c main_v1_1 = bRow m c := by
  unfold VR VE
  rw [Function.update_self]

/-- The one admissible contents of the (absent) prefetched tables. -/
abbrev adm : (p : Fin 1) → (pcfgs (F := F) p).Adm := fun p => (cfgs p).toPCfg_adm

/-- The wait pairs the TensorCore may have recorded when the region is entered: those at or below the level the
    launch's handshakes leave it at after the call. -/
abbrev RecT : Set (SemLoc sig × HIx 1) := {p | ∀ d : Dev nD, (K (F := F)).lev (SparseCore.T d, p.1) p.2 ≤ 8}

/-- The pipeline's proof data at the region-entry contents. -/
abbrev pdats : (p : Fin 1) → (c : Dev nD) → Pipeline.Dat τ (Elt F) (HIx 1) ℕ UU ℕ (Pipeline.pin (pcfgs (F := F)) adm p) c :=
  fun p c => Region.dats (VR m) (RecT (F := F)) p c

/-- What the region is entered from and what it leaves. -/
abbrev preR (c : Dev nD) : sProp 𝕄 :=
  iprop((pdats m 0 c).arrays ((pdats m 0 c).arrAt · 0) ∗ Pipeline.prefHeld (pcfgs (F := F) 0).pre c (fun _ => fullShare) (adm (F := F) 0).1
    ∗ (pdats m 0 c).owesAt none 0 ∗ (∃ r, prngReg c r) ∗ Pipeline.unscopedRest spec1 c (VR m c))
abbrev postR (c : Dev nD) : sProp 𝕄 :=
  iprop((pdats m 0 c).arrays ((pdats m 0 c).arrAt · (Pipeline.pin (pcfgs (F := F)) adm 0).N) ∗ (pdats m 0 c).owesAt none (Fin.last (Pipeline.pin (pcfgs (F := F)) adm 0).N)
    ∗ (∃ r, prngReg c r) ∗ Pipeline.unscopedRest spec1 c (VR m c))

def R : Pipeline.RegionSeg (pcfgs (F := F)) adm (pdats m) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (Region.body_obligation (VR m) (RecT (F := F)) c none).loose
  hwaits c := Pipeline.hwaits_of_owed_zero (pcfgs (F := F)) adm (pdats m) none (K (F := F)).L (K (F := F)).lev 0 (fun c t => Region.owed_eq (VR m) (RecT (F := F)) c t) c
  pre := preR m
  post := postR m
  X c := iprop(∃ r, prngReg c r)
  Y c := iprop(∃ r, prngReg c r)
  Z c := Pipeline.unscopedRest spec1 c (VR m c)
  hentry c := by
    iintro ⟨H, -, -⟩; imodintro; iexact H
  hin c := by
    rw [show (pdats m 0 c).Φ 0 = Region.Φrest c from Region.Φ_eq (VR m) (RecT (F := F)) c 0, Region.Φrest_eq]
    iintro ⟨HX, -, Hs⟩
    isplitl [Hs]; · iexact Hs
    iexact HX
  hout c := by
    rw [show (pdats m 0 c).Φ (Fin.last _) = Region.Φrest c from Region.Φ_eq (VR m) (RecT (F := F)) c _, Region.Φrest_eq, Pipeline.ownSems0_none]
    iintro ⟨Hs, HX⟩
    isplitl [HX]; · iexact HX
    isplitr; · iempintro
    iexact Hs
  hexit c := by
    iintro H; imodintro; iexact H

theorem Otc_one (d : Dev nD) : (K (F := F)).Otc d 1 = 0 := by
  unfold SparseCore.Cfg.Otc
  rw [show (Finset.univ : Finset (Fin 1)) = {0} by decide, Finset.sum_singleton]
  rfl

/-- The TensorCore's handshake state, less what it owes. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := rfl

theorem G_eq (d : Dev nD) : (G (F := F) d : sProp 𝕄) = iprop(Pipeline.cellsGhost cfgs (EP (F := F)) 0 d ∗ Pipeline.toksInit cfgs (EP (F := F)) 0 d) := by
  unfold G
  rw [show (Finset.univ : Finset (Fin 1)) = {0} by decide, bigSep_singleton, bigSep_singleton]

/-- What @main leaves the claim: the pipeline's arrays as the region left them, and the arrays it did not stage. -/
abbrev FIN (d : Dev nD) : sProp 𝕄 :=
  iprop((pdats m 0 d).arrays ((pdats m 0 d).arrAt · (Pipeline.pin (pcfgs (F := F)) adm 0).N) ∗ Pipeline.unscopedRest spec1 d (VR m d))

theorem prefHeld_emp (d : Dev nD) :
    (Pipeline.prefHeld (pcfgs (F := F) 0).pre d (fun _ => fullShare) (adm (F := F) 0).1 : sProp 𝕄) = iprop(emp) := by
  unfold Pipeline.prefHeld
  show (bigSep (Finset.univ : Finset (Fin 0)) _ : sProp 𝕄) = _
  rw [Finset.univ_eq_empty, bigSep_empty]
  rfl

theorem hmain (hid : ∀ d, m (idLoc d) = fun _ => (1#32 : BitVec 32)) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, Hts, Hprng⟩, HG⟩
  iapply (wp_hlo_within 𝒱 (SparseCore.T d) none Set.univ (op := opR) (S := S8) hR (V := V0 m d)) $$ [Hb Hheld]
  · isplitl [Hb]; · iexact Hb
    iexact Hheld
  iintro ⟨Hb, Hheld⟩
  ihave Hh := (Entails.of_eq (held_S8 (F := F) d _)) $$ Hheld
  icases Hh with ⟨Ha0, Ha1, Ha2, Ha3, Hv0, Hg, Hbr, Ho⟩
  rw [wp_ret]; imodintro
  rw [show (opR (F := F)).result (V0 m d) v0' = idxOne (F := F) d from V1_v0 m hid d,
    show (opR (F := F)).result (V0 m d) a0' = m (featLoc d) from V1_ne m d (by decide),
    show (opR (F := F)).result (V0 m d) a1' = m (idLoc d) from V1_ne m d (by decide),
    show (opR (F := F)).result (V0 m d) a2' = m (gamLoc d) from V1_ne m d (by decide),
    show (opR (F := F)).result (V0 m d) a3' = m (betLoc d) from V1_ne m d (by decide),
    show (opR (F := F)).result (V0 m d) o' = m (outLoc d) from V1_ne m d (by decide)]
  iapply ((K (F := F)).wp_run (D (F := F)) 𝒱 (EH := EH) (P := P m) κ d 0) $$ [Hst Hv0 Ha2 Ha3 Hg Hbr Hb Ha0 Ha1 Ho Hts Hprng HG]
  isplitr; · iexact Hctx
  isplitl [Hst]; · iexact Hst
  isplitl [Hv0 Ha2 Ha3 Hg Hbr]
  · rw [st0_eq]; unfold stRes
    isplitl [Hv0]; · iexact Hv0
    isplitl [Ha2]; · iexact Ha2
    isplitl [Ha3]; · iexact Ha3
    isplitl [Hg]; · iexists _; iexact Hg
    iexists _; iexact Hbr
  iintro ⟨Hst, Hdn⟩
  ihave Hdn' := (Entails.of_eq ((dn0_eq m d).trans (show dnRes m d = iprop((idxLoc d ↦{fullShare} idxOne d) ∗ (gamLoc d ↦{fullShare} m (gamLoc d)) ∗ (betLoc d ↦{fullShare} m (betLoc d))
    ∗ (growLoc d ↦{fullShare} gRow m d) ∗ browLoc d ↦{fullShare} bRow m d) from rfl))) $$ Hdn
  icases Hdn' with ⟨Hv0, Ha2, Ha3, Hg, Hbr⟩
  -- the arrays at the region-entry contents, sorted into the pipeline's arrays and the rest
  ihave HU := (Entails.of_eq (unscopedBufs_eq (F := F) d (VR m d)).symm) $$ [Ha0 Ha1 Ha2 Ha3 Hv0 Hg Hbr Ho]
  · rw [VR_of_ne m d (r := main_arg0) (by decide) (by decide) (by decide), VR_of_ne m d (r := main_arg1) (by decide) (by decide) (by decide),
      VR_of_ne m d (r := main_arg2) (by decide) (by decide) (by decide), VR_of_ne m d (r := main_arg3) (by decide) (by decide) (by decide),
      VR_v0, VR_g, VR_b, VR_of_ne m d (r := main_v2) (by decide) (by decide) (by decide)]
    isplitl [Ha0]; · iexact Ha0
    isplitl [Ha1]; · iexact Ha1
    isplitl [Ha2]; · iexact Ha2
    isplitl [Ha3]; · iexact Ha3
    isplitl [Hv0]; · iexact Hv0
    isplitl [Hg]; · iexact Hg
    isplitl [Hbr]; · iexact Hbr
    iexact Ho
  ihave HAR := (Pipeline.arrays_of_unscopedBufs (pcfgs (F := F)) adm (pdats m) launch1.win launch1.arr_whole d
      ((pdats m 0 d).share_full fun _ => rfl) (VR m d) (fun w => Region.A_eq (VR m) (RecT (F := F)) d w)) $$ HU
  icases HAR with ⟨Harr, Hrest⟩
  -- what the TensorCore owes, out of its handshake state
  ihave Hst' := (Entails.of_eq (tcSt_eq (F := F) d _)) $$ Hst
  icases Hst' with ⟨⟨%W, %hW, HO⟩, Hst2⟩
  ihave Hlev := ((K (F := F)).ctx_levAts (EH := EH) (P := P m) κ) $$ Hctx
  ihave HG' := (Entails.of_eq (G_eq (F := F) d)) $$ HG
  icases HG' with ⟨Hgc, Hgt⟩
  -- the region, entered through the lifted body table
  iapply (show wp frame (wpE (D (F := F)) 𝒱 (SparseCore.T d) none) Set.univ (Prog.lift (.customCall (Pipeline.entry 0) ())) _ ⊢ _ from
    (K (F := F)).wp_liftProg (D (F := F)) 𝒱 (SparseCore.T d) Set.univ none (Prog.lift (.customCall (Pipeline.entry 0) ())) _)
  iapply (Pipeline.RegionSeg.wp (pcfgs (F := F)) adm (pdats m) none cellOf_inj (EP (F := F)) defs₀ 𝒱₀ (K (F := F)).L (K (F := F)).lev (R m) d none
    (fun u hu => nomatch hu) (fun x => .ret x) _) $$ [Hst2 Hb Harr Hrest HO Hprng Hgc Hgt]
  isplitl [Hst2]
  · -- after the region: the handshake state again, and what the claim reads
    iintro ⟨-, Hpost0⟩
    ihave Hpost := (Entails.of_eq (show (R m).post d = postR m d from rfl)) $$ Hpost0
    icases Hpost with ⟨Harr, ⟨%W', %hW', HO⟩, -, Hrest⟩
    rw [wp_ret]; imodintro; imodintro
    isplitl [HO Hst2]
    · iapply (Entails.of_eq (tcSt_eq (F := F) d 1).symm)
      isplitl [HO]
      · iexists W'; isplitr
        · ipureintro
          intro p hp
          rcases hW' (Finset.mem_coe.mpr hp) with h | ⟨w, s, rfl⟩
          · rw [Region.recorded_eq] at h; exact h d
          · exact Nat.zero_le _
        · rw [Otc_one]; iexact HO
      · iexact Hst2
    · isplitl [Harr]; · iexact Harr
      iexact Hrest
  isplitl [Hb]; · iexact Hb
  isplitl [Harr Hrest HO Hprng]
  · iapply (Entails.of_eq (show preR m d = (R m).pre d from rfl))
    isplitl [Harr]; · iexact Harr
    isplitr; · rw [prefHeld_emp]; iempintro
    isplitl [HO]
    · iexists W; isplitr
      · ipureintro
        intro p hp
        refine Or.inl ?_
        rw [Region.recorded_eq]
        intro d'
        rw [Subsingleton.elim d' d]
        exact hW p (Finset.mem_coe.mp hp)
      · rw [show (K (F := F)).Otc d ((0 : Fin 1).val + 1) = 0 from Otc_one d]; iexact HO
    isplitl [Hprng]; · iexists _; iexact Hprng
    iexact Hrest
  isplitr; · iexact Hlev
  isplitl [Hgc]; · iexact Hgc
  iexact Hgt

/-! ## How the final memory reads the claim -/

def fq (d : Dev nD) (s' : Phys nD τ sig (Elt F)) : Prop :=
  (∀ w, s'.mem.mem (((pcfgs (F := F) 0).spec w).arr.view.loc (d.tc : Thread nD τ)) = (pdats m 0 d).arrAt w (Pipeline.pin (pcfgs (F := F)) adm 0).N)
    ∧ s'.mem.mem (idLoc d) = m (idLoc d) ∧ s'.mem.mem (gamLoc d) = m (gamLoc d) ∧ s'.mem.mem (betLoc d) = m (betLoc d)

theorem hfin (d : Dev nD) (s' : Phys nD τ sig (Elt F)) : iprop(FIN m d ∗ SI s') ⊢ (⌜fq m d s'⌝ : sProp 𝕄) := by
  iintro ⟨⟨Harr, Hrest⟩, HSI⟩
  ihave H1 := (Pipeline.arrays_read (pcfgs (F := F)) adm (pdats m) launch1.arr_whole d ((pdats m 0 d).share_full fun _ => rfl) _ s') $$ [Harr HSI]
  · isplitl [Harr] <;> iassumption
  icases H1 with ⟨%ha, HSI⟩
  ihave Hr := (Entails.of_eq (unscopedRest1_eq d (VR m d))) $$ Hrest
  icases Hr with ⟨Hi, Hg, Hb, -⟩
  icombine HSI Hi gives %h1
  icombine HSI Hg gives %h2
  icombine HSI Hb gives %h3
  ipureintro
  refine ⟨ha, ?_, ?_, ?_⟩
  · exact (funext fun i => h1 i (Finset.mem_univ i)).trans (VR_of_ne m d (by decide) (by decide) (by decide))
  · exact (funext fun i => h2 i (Finset.mem_univ i)).trans (VR_of_ne m d (by decide) (by decide) (by decide))
  · exact (funext fun i => h3 i (Finset.mem_univ i)).trans (VR_of_ne m d (by decide) (by decide) (by decide))

/-! ## The program's run -/

/-- The run's post: the result array holds the affine map of the arguments, which are unchanged. -/
def QC : PUnit × MemSt nD τ sig (Elt F) → Prop := fun r => ∀ c : Dev nD,
  r.2.mem (outLoc c) = (Cert.Spec.G (F := F) (m (featLoc c)) (m (gamLoc c)) (m (betLoc c)) : Cert.Spec.SB.Idx → Elt F .f32)
    ∧ r.2.mem (featLoc c) = m (featLoc c) ∧ r.2.mem (idLoc c) = m (idLoc c) ∧ r.2.mem (gamLoc c) = m (gamLoc c) ∧ r.2.mem (betLoc c) = m (betLoc c)

theorem hQ (s' : Phys nD τ sig (Elt F)) (h : ∀ d, fq m d s') : QC m (⟨⟩, s'.mem) := by
  intro c
  obtain ⟨ha, h1, h2, h3⟩ := h c
  refine ⟨?_, ?_, h1, h2, h3⟩
  · refine (ha 3).trans ((Region.final3 (VR m) (RecT (F := F)) c).trans ?_)
    rw [VR_of_ne m c (r := main_arg0) (by decide) (by decide) (by decide), VR_g, VR_b]
    exact (Cert.Spec.G_eq_affine _ _ _).symm
  · exact (ha 0).trans ((Region.kept0 (VR m) (RecT (F := F)) c).trans (VR_of_ne m c (by decide) (by decide) (by decide)))

theorem run_main [∀ e, Nonempty (Elt F e)] (hid : ∀ d, m (idLoc d) = fun _ => (1#32 : BitVec 32)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (G (F := F)) (FIN m) (u₀ (F := F)) (sep_elim_left.trans (hu₀ m)) (hmain m ρ hid) (fq m) (hfin m) (QC m) (hQ m)

end Cert.Kernel.Run

end
-- ==== Proof.lean ====
/-
  The kernel and its reference compute one function at the ideal instance.
  The reference broadcasts the scalar modality index to every row, takes that row of the scale table and of the
  shift table, and returns  feat * gamma[id] + beta[id]  entry by entry. The kernel has one sequencer copy the
  index into its scalar memory, read it, and copy row  id  of each table out into a one-row array; the TensorCore
  then computes  feat * g_row + b_row  block of 512 rows by block. The precondition pins the index to 1, so on
  both sides the row is row 1 (in range of the two-row tables: the reference's clamp and fill never act, the
  sequencer's copies stay inside the tables), and both results are
      out[r, k] = feat[r, k] * gamma[1, k] + beta[1, k].
  No law of arithmetic is needed to join the two sides: the same product and the same sum, of the same operands;
  finiteness of the float inputs is never used.
  The three frame claims are the same runs with the values forgotten; the kernel's idealization rewrote nothing,
  so the idealization claim is trivial.
-/
import proofs.«211337_g9826885173858_cont_9to1_m_1014_11_alg».proof.Defs
import proofs.«211337_g9826885173858_cont_9to1_m_1014_11_alg».proof.Proof.Gen.Kernel
import proofs.«211337_g9826885173858_cont_9to1_m_1014_11_alg».proof.Proof.Gen.KernelIdeal
import proofs.«211337_g9826885173858_cont_9to1_m_1014_11_alg».proof.Proof.Gen.ReferenceIdeal
import proofs.«211337_g9826885173858_cont_9to1_m_1014_11_alg».proof.Proof.Gen.Pre_input_domain
import proofs.«211337_g9826885173858_cont_9to1_m_1014_11_alg».proof.Proof.PreDecode
import proofs.«211337_g9826885173858_cont_9to1_m_1014_11_alg».proof.Proof.RefValue
import proofs.«211337_g9826885173858_cont_9to1_m_1014_11_alg».proof.Proof.KILaunch
import proofs.«211337_g9826885173858_cont_9to1_m_1014_11_alg».proof.Proof.KLaunch

noncomputable section

namespace Cert.Proof

open Idealize.ShloMosaic Idealize.SL.Sem

/-- The word-level kernel runs to the end and leaves its arguments unchanged: its run, the result forgotten. -/
theorem frame_k : Cert.frame_Kernel := fun m g hpre =>
  (θ_run Cert.Kernel.defs _ _).mono (fun _ h c => ⟨(h c).2.1, (h c).2.2.1, (h c).2.2.2.1, (h c).2.2.2.2⟩)
    (Cert.Kernel.Run.run_main (F := Bits) m g (fun d => Cert.PreDecode.modality_eq_one _ _ _ _ (hpre d)))

/-- The same for the idealized kernel. -/
theorem frame_ki : Cert.frame_KernelIdeal := fun m g hpre =>
  (θ_run Cert.KernelIdeal.defs _ _).mono (fun _ h c => ⟨(h c).2.1, (h c).2.2.1, (h c).2.2.2.1, (h c).2.2.2.2⟩)
    (Cert.KernelIdeal.Run.run_main (F := Ideal) m g (fun d => Cert.PreDecode.modality_eq_one _ _ _ _ (hpre d)))

/-- The reference is host operations only: its run, the result forgotten. -/
theorem frame_ri : Cert.frame_ReferenceIdeal := fun m g _ =>
  (θ_run Cert.ReferenceIdeal.defs _ _).mono (fun _ h c => (h c).2) (Cert.ReferenceIdeal.RefRun.run (F := Ideal) m g)

/-- Both idealized programs end with the affine map of the arguments at row 1 of the tables. -/
theorem algebraic : Cert.algebraic_KernelIdeal_ReferenceIdeal := by
  intro m g m' g' hpre hagree
  have hid : ∀ d, m (Cert.KernelIdeal.Run.idLoc d) = fun _ => (1#32 : BitVec 32) :=
    fun d => Cert.PreDecode.modality_eq_one _ _ _ _ (hpre d)
  refine ⟨fun c => (Cert.Spec.G (F := Ideal) (m (Cert.KernelIdeal.Run.featLoc c)) (m (Cert.KernelIdeal.Run.gamLoc c)) (m (Cert.KernelIdeal.Run.betLoc c)) :
      Cert.Spec.SB.Idx → Elt Ideal .f32), ?_, ?_⟩
  · exact (θ_run Cert.KernelIdeal.defs _ _).mono (fun _ h c => h c) (Cert.KernelIdeal.Run.run_main (F := Ideal) m g hid)
  · refine (θ_run Cert.ReferenceIdeal.defs _ _).mono (fun _ h c => ⟨(h c).1.trans ?_, (h c).2⟩)
      (Cert.ReferenceIdeal.RefValue.run_G (F := Ideal) m' g' (fun c => ((hagree c).2.1).trans (hid c)))
    rw [(hagree c).1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
